-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part2 {F : FTy → Type} [FloatOps F] (main_arg7 : FVec F S256x128 .f32) (main_arg8 : FVec F S256x2048 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x2048 .f32 := Host.absf main_arg8
  let main_cst_14 : FVec F S_ .f32 := constant S_ .f32 0x7F800000#32
  let main_v40 : FVec F S256x2048 .f32 := broadcastInDim S256x2048 ![] bcast_S_S256x2048 main_cst_14
  let main_v41 : IVec S256x2048 1 := cmpf .olt main_v39 main_v40
  let main_c_15 : IVec S_ 1 := constantI S_ 1 1#1
  let main_v42 : IVec S_ 1 := (fun x v => Host.reduce IntOp.andi x v reducesTo_S256x2048_S_d0_1 h_S_) main_v41 main_c_15
  let main_v43 : IVec S_ 1 := andi main_v38 main_v42
  main_v43

def fn_part1 {F : FTy → Type} [FloatOps F] (main_arg4 : FVec F S256x256 .f32) (main_arg5 : FVec F S64x512 .f32) (main_arg6 : FVec F S512 .f32) (main_arg7 : FVec F S256x128 .f32) (main_arg8 : FVec F S256x2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S65536x64 .f32) (main_arg2 : FVec F S64x512 .f32) (main_arg3 : FVec F S512 .f32) (main_arg4 : FVec F S256x256 .f32) (main_arg5 : FVec F S64x512 .f32) (main_arg6 : FVec F S512 .f32) (main_arg7 : FVec F S256x128 .f32) (main_arg8 : FVec F S256x2048 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S1x512 : Shape := ⟨2, ![1, 512]⟩
abbrev S65536x384 : Shape := ⟨2, ![65536, 384]⟩
abbrev S256x512 : Shape := ⟨2, ![256, 512]⟩
abbrev S256x64 : Shape := ⟨2, ![256, 64]⟩
abbrev S256x384 : Shape := ⟨2, ![256, 384]⟩
abbrev S256x96 : Shape := ⟨2, ![256, 96]⟩
abbrev S256x32x3 : Shape := ⟨3, ![256, 32, 3]⟩
abbrev S256x160 : Shape := ⟨2, ![256, 160]⟩
abbrev S256x32x5 : Shape := ⟨3, ![256, 32, 5]⟩
abbrev S256x1024 : Shape := ⟨2, ![256, 1024]⟩
abbrev S256x32x32 : Shape := ⟨3, ![256, 32, 32]⟩

abbrev nBuf : Space → Nat
  | .hbm => 12
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S64x512, .f32⟩
  | .hbm, ⟨3, _⟩ => ⟨S512, .f32⟩
  | .hbm, ⟨4, _⟩ => ⟨S256x256, .f32⟩
  | .hbm, ⟨5, _⟩ => ⟨S64x512, .f32⟩
  | .hbm, ⟨6, _⟩ => ⟨S512, .f32⟩
  | .hbm, ⟨7, _⟩ => ⟨S256x128, .f32⟩
  | .hbm, ⟨8, _⟩ => ⟨S256x2048, .f32⟩
  | .hbm, ⟨9, _⟩ => ⟨S1x512, .f32⟩
  | .hbm, ⟨10, _⟩ => ⟨S1x512, .f32⟩
  | .hbm, ⟨11, _⟩ => ⟨S65536x384, .f32⟩
  | .local _ .vmem, ⟨0, _⟩ => ⟨S256x512, .f32⟩
  | .local _ .vmem, ⟨1, _⟩ => ⟨S256x512, .f32⟩
  | .local _ .vmem, ⟨2, _⟩ => ⟨S256x64, .f32⟩
  | .local _ .vmem, ⟨3, _⟩ => ⟨S256x64, .f32⟩
  | .local _ .vmem, ⟨4, _⟩ => ⟨S64x512, .f32⟩
  | .local _ .vmem, ⟨5, _⟩ => ⟨S1x512, .f32⟩
  | .local _ .vmem, ⟨6, _⟩ => ⟨S256x256, .f32⟩
  | .local _ .vmem, ⟨7, _⟩ => ⟨S64x512, .f32⟩
  | .local _ .vmem, ⟨8, _⟩ => ⟨S1x512, .f32⟩
  | .local _ .vmem, ⟨9, _⟩ => ⟨S256x128, .f32⟩
  | .local _ .vmem, ⟨10, _⟩ => ⟨S256x2048, .f32⟩
  | .local _ .vmem, ⟨11, _⟩ => ⟨S256x384, .f32⟩
  | .local _ .vmem, ⟨12, _⟩ => ⟨S256x384, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  inb_S256x512_S256x512_0_0 : ∀ a, (![0, 0] : Fin 2 → Nat) a + S256x512.size a ≤ S256x512.size a
  h_S256x512 : 0 < S256x512.numel
  inb_S256x64_S256x64_0_0 : ∀ a, (![0, 0] : Fin 2 → Nat) a + S256x64.size a ≤ S256x64.size a
  h_S256x64 : 0 < S256x64.numel
  slices_S256x512_o0_0_S256x256 : S256x512.Slices ![0, 0] S256x256
  slices_S256x512_o0_256_S256x256 : S256x512.Slices ![0, 256] S256x256
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S256x2048_S256x2048_0_0 : ∀ a, (![0, 0] : Fin 2 → Nat) a + S256x2048.size a ≤ S256x2048.size a
  h_S256x2048 : 0 < S256x2048.numel
  slices_S256x256_o0_0_S256x96 : S256x256.Slices ![0, 0] S256x96
  shapeCasts_S256x96_S256x32x3 : S256x96.ShapeCasts S256x32x3
  slices_S256x256_o0_96_S256x160 : S256x256.Slices ![0, 96] S256x160
  shapeCasts_S256x160_S256x32x5 : S256x160.ShapeCasts S256x32x5
  slices_S256x2048_o0_0_S256x1024 : S256x2048.Slices ![0, 0] S256x1024
  shapeCasts_S256x1024_S256x32x32 : S256x1024.ShapeCasts S256x32x32
  slices_S256x2048_o0_1024_S256x1024 : S256x2048.Slices ![0, 1024] S256x1024
  shapeCasts_S256x32x3_S256x96 : S256x32x3.ShapeCasts S256x96
  shapeCasts_S256x32x5_S256x160 : S256x32x5.ShapeCasts S256x160
  concatenates_S256x128_S256x96_S256x160_S256x384_d1 : Shape.Concatenates [S256x128, S256x96, S256x160] S256x384 1
  inb_S256x384_S256x384_0_0 : ∀ a, (![0, 0] : Fin 2 → Nat) a + S256x384.size a ≤ S256x384.size a
  h_S256x384 : 0 < S256x384.numel
  dot_S256x64_S64x512_S256x512_1_0_0_1_n_n_wf : DotDims.WF S256x64 S64x512 S256x512 [1] [0] [0] [1] [] []
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []
  dot_S256x256_S256x2048_S256x2048_1_0_0_1_n_n_wf : DotDims.WF S256x256 S256x2048 S256x2048 [1] [0] [0] [1] [] []
  dot_S256x32x32_S256x32x3_S256x32x3_1_1_2_2_0_0_wf : DotDims.WF S256x32x32 S256x32x3 S256x32x3 [1] [1] [2] [2] [0] [0]
  dot_S256x32x32_S256x32x5_S256x32x5_1_1_2_2_0_0_wf : DotDims.WF S256x32x32 S256x32x5 S256x32x5 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S65536x512.size a
  hwx0_0 : ∀ i : grid0.Coords, EltTy.bits .f32 = 32 ∨ (Rect.block (s := S65536x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S65536x64.size a
  hwx0_1 : ∀ i : grid0.Coords, EltTy.bits .f32 = 32 ∨ (Rect.block (s := S65536x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S256x2048.size a
  hwx0_8 : ∀ i : grid0.Coords, EltTy.bits .f32 = 32 ∨ (Rect.block (s := S256x2048) S256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x384.size a ≤ S65536x384.size a
  hwx0_9 : ∀ i : grid0.Coords, EltTy.bits .f32 = 32 ∨ (Rect.block (s := S65536x384) S256x384.size (cc0_transform_9 i) (hinb0_9 i)).WholeWords (EltTy.packing .f32)

variable [Facts₀]

def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x32x32_S256x32x3_S256x32x3_1_1_2_2_0_0 : DotDims S256x32x32 S256x32x3 S256x32x3 where
  lhsContracting := [1]
  rhsContracting := [1]
  lhsNonContracting := [2]
  rhsNonContracting := [2]
  lhsBatch := [0]
  rhsBatch := [0]
  wf := dot_S256x32x32_S256x32x3_S256x32x3_1_1_2_2_0_0_wf
def dot_S256x32x32_S256x32x5_S256x32x5_1_1_2_2_0_0 : DotDims S256x32x32 S256x32x5 S256x32x5 where
  lhsContracting := [1]
  rhsContracting := [1]
  lhsNonContracting := [2]
  rhsNonContracting := [2]
  lhsBatch := [0]
  rhsBatch := [0]
  wf := dot_S256x32x32_S256x32x5_S256x32x5_1_1_2_2_0_0_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S256x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x64 : Shape := ⟨2, ![65536, 64]⟩
abbrev S64x512 : Shape := ⟨2, ![64, 512]⟩
abbrev S512 : Shape := ⟨1, ![512]⟩
abbrev S256x256 : Shape := ⟨2, ![256, 256]⟩
abbrev S256x128 : Shape := ⟨2, ![256, 128]⟩
abbrev S256x2048 : Shape := ⟨2, ![256, 2048]⟩
abbrev S65536x256 : Shape := ⟨2, ![65536, 256]⟩
abbrev S1x512 : Shape := ⟨2, ![1, 512]⟩
abbrev S65536x128 : Shape := ⟨2, ![65536, 128]⟩
abbrev S65536x96 : Shape := ⟨2, ![65536, 96]⟩
abbrev S65536x32x3 : Shape := ⟨3, ![65536, 32, 3]⟩
abbrev S65536x160 : Shape := ⟨2, ![65536, 160]⟩
abbrev S65536x32x5 : Shape := ⟨3, ![65536, 32, 5]⟩
abbrev S65536x2048 : Shape := ⟨2, ![65536, 2048]⟩
abbrev S65536x1024 : Shape := ⟨2, ![65536, 1024]⟩
abbrev S65536x32x32 : Shape := ⟨3, ![65536, 32, 32]⟩
abbrev S_ : Shape := ⟨0, ![]⟩
abbrev S65536x384 : Shape := ⟨2, ![65536, 384]⟩

abbrev nBuf : Space → Nat
  | .hbm => 50
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S64x512, .f32⟩
  | .hbm, ⟨3, _⟩ => ⟨S512, .f32⟩
  | .hbm, ⟨4, _⟩ => ⟨S256x256, .f32⟩
  | .hbm, ⟨5, _⟩ => ⟨S64x512, .f32⟩
  | .hbm, ⟨6, _⟩ => ⟨S512, .f32⟩
  | .hbm, ⟨7, _⟩ => ⟨S256x128, .f32⟩
  | .hbm, ⟨8, _⟩ => ⟨S256x2048, .f32⟩
  | .hbm, ⟨9, _⟩ => ⟨S65536x256, .f32⟩
  | .hbm, ⟨10, _⟩ => ⟨S65536x256, .f32⟩
  | .hbm, ⟨11, _⟩ => ⟨S65536x512, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x512, .f32⟩
  | .hbm, ⟨21, _⟩ => ⟨S1x512, .f32⟩
  | .hbm, ⟨22, _⟩ => ⟨S65536x512, .f32⟩
  | .hbm, ⟨23, _⟩ => ⟨S65536x512, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x128, .f32⟩
  | .hbm, ⟨29, _⟩ => ⟨S65536x96, .f32⟩
  | .hbm, ⟨30, _⟩ => ⟨S65536x32x3, .f32⟩
  | .hbm, ⟨31, _⟩ => ⟨S65536x160, .f32⟩
  | .hbm, ⟨32, _⟩ => ⟨S65536x32x5, .f32⟩
  | .hbm, ⟨33, _⟩ => ⟨S65536x2048, .f32⟩
  | .hbm, ⟨34, _⟩ => ⟨S65536x1024, .f32⟩
  | .hbm, ⟨35, _⟩ => ⟨S65536x32x32, .f32⟩
  | .hbm, ⟨36, _⟩ => ⟨S65536x1024, .f32⟩
  | .hbm, ⟨37, _⟩ => ⟨S65536x32x32, .f32⟩
  | .hbm, ⟨38, _⟩ => ⟨S65536x32x3, .f32⟩
  | .hbm, ⟨39, _⟩ => ⟨S_, .f32⟩
  | .hbm, ⟨40, _⟩ => ⟨S65536x32x3, .f32⟩
  | .hbm, ⟨41, _⟩ => ⟨S65536x32x3, .f32⟩
  | .hbm, ⟨42, _⟩ => ⟨S65536x32x5, .f32⟩
  | .hbm, ⟨43, _⟩ => ⟨S_, .f32⟩
  | .hbm, ⟨44, _⟩ => ⟨S65536x32x5, .f32⟩
  | .hbm, ⟨45, _⟩ => ⟨S65536x32x5, .f32⟩
  | .hbm, ⟨46, _⟩ => ⟨S65536x96, .f32⟩
  | .hbm, ⟨47, _⟩ => ⟨S65536x160, .f32⟩
  | .hbm, ⟨48, _⟩ => ⟨S65536x256, .f32⟩
  | .hbm, ⟨49, _⟩ => ⟨S65536x384, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]

class Facts₀ : Prop where
  slices_S65536x512_S65536x256_0_0 : S65536x512.Slices ![0, 0] S65536x256
  slices_S65536x512_S65536x256_0_256 : S65536x512.Slices ![0, 256] S65536x256
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x256_S65536x96_0_0 : S65536x256.Slices ![0, 0] S65536x96
  shapeCasts_S65536x96_S65536x32x3 : S65536x96.ShapeCasts S65536x32x3
  slices_S65536x256_S65536x160_0_96 : S65536x256.Slices ![0, 96] S65536x160
  shapeCasts_S65536x160_S65536x32x5 : S65536x160.ShapeCasts S65536x32x5
  slices_S65536x2048_S65536x1024_0_0 : S65536x2048.Slices ![0, 0] S65536x1024
  shapeCasts_S65536x1024_S65536x32x32 : S65536x1024.ShapeCasts S65536x32x32
  slices_S65536x2048_S65536x1024_0_1024 : S65536x2048.Slices ![0, 1024] S65536x1024
  bcast_S_S65536x32x3 : S_.BroadcastsInDim S65536x32x3 (![] : Fin 0 → Fin S65536x32x3.rank)
  bcast_S_S65536x32x5 : S_.BroadcastsInDim S65536x32x5 (![] : Fin 0 → Fin S65536x32x5.rank)
  shapeCasts_S65536x32x3_S65536x96 : S65536x32x3.ShapeCasts S65536x96
  shapeCasts_S65536x32x5_S65536x160 : S65536x32x5.ShapeCasts S65536x160
  concatenates_S65536x96_S65536x160_S65536x256_d1 : Shape.Concatenates [S65536x96, S65536x160] S65536x256 1
  concatenates_S65536x128_S65536x256_S65536x384_d1 : Shape.Concatenates [S65536x128, S65536x256] S65536x384 1
  dot_S65536x64_S64x512_S65536x512_1_0_0_1_n_n_wf : DotDims.WF S65536x64 S64x512 S65536x512 [1] [0] [0] [1] [] []
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []
  dot_S65536x256_S256x2048_S65536x2048_1_0_0_1_n_n_wf : DotDims.WF S65536x256 S256x2048 S65536x2048 [1] [0] [0] [1] [] []
  dot_S65536x32x32_S65536x32x3_S65536x32x3_1_1_2_2_0_0_wf : DotDims.WF S65536x32x32 S65536x32x3 S65536x32x3 [1] [1] [2] [2] [0] [0]
  dot_S65536x32x32_S65536x32x5_S65536x32x5_1_1_2_2_0_0_wf : DotDims.WF S65536x32x32 S65536x32x5 S65536x32x5 [1] [1] [2] [2] [0] [0]

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x256_S256x2048_S65536x2048_1_0_0_1_n_n : DotDims S65536x256 S256x2048 S65536x2048 where
  lhsContracting := [1]
  rhsContracting := [0]
  lhsNonContracting := [0]
  rhsNonContracting := [1]
  lhsBatch := []
  rhsBatch := []
  wf := dot_S65536x256_S256x2048_S65536x2048_1_0_0_1_n_n_wf
def dot_S65536x32x32_S65536x32x3_S65536x32x3_1_1_2_2_0_0 : DotDims S65536x32x32 S65536x32x3 S65536x32x3 where
  lhsContracting := [1]
  rhsContracting := [1]
  lhsNonContracting := [2]
  rhsNonContracting := [2]
  lhsBatch := [0]
  rhsBatch := [0]
  wf := dot_S65536x32x32_S65536x32x3_S65536x32x3_1_1_2_2_0_0_wf
def dot_S65536x32x32_S65536x32x5_S65536x32x5_1_1_2_2_0_0 : DotDims S65536x32x32 S65536x32x5 S65536x32x5 where
  lhsContracting := [1]
  rhsContracting := [1]
  lhsNonContracting := [2]
  rhsNonContracting := [2]
  lhsBatch := [0]
  rhsBatch := [0]
  wf := dot_S65536x32x32_S65536x32x5_S65536x32x5_1_1_2_2_0_0_wf

class Facts : Prop extends Facts₀ where

variable [Facts]
-- ==== Proof.Rows.lean ====
/-
  Blocks of rows.  The kernel's grid cuts the batch axis of 65536 rows into 256 blocks of 256 rows; every
  operation of its body acts on each row independently of the others (a matrix product with a weight matrix on the
  right, a slice of columns, a reshape of the columns of a row, a contraction inside a row, a concatenation of
  columns, pointwise arithmetic).  `Rows2 t X A` says that the [256, C] value `X` is rows 256·t … 256·t + 255 of
  the [65536, C] value `A`, entry by entry, the two entries named by the COORDINATES of their indices;
  `Rows3` is the same for values with two column axes.  Each lemma below transports the relation along one
  operation applied on both sides: the operation reads its operand at an index computed from the result's index, the
  same computation on the column coordinates on both sides and the identity on the row coordinate.
-/
import Idealize.ShloMosaic.Lib.ValueIdx
import Idealize.ShloMosaic.Lib.Pipeline.Value
import Idealize.ShloMosaic.PureOps.Ideal.Laws

noncomputable section

namespace Cert.RowBlocks

open Idealize.ShloMosaic

variable {α : Type} {t : ℕ}

/-- `X` is block `t` of the rows of `A`: equal entries wherever the row coordinates differ by `256 * t` and the column
    coordinates agree. -/
def Rows2 (t : ℕ) {C : ℕ} (X : (⟨2, ![256, C]⟩ : Shape).Idx → α) (A : (⟨2, ![65536, C]⟩ : Shape).Idx → α) : Prop :=
  ∀ y i, (i 0).val = 256 * t + (y 0).val → (i 1).val = (y 1).val → X y = A i

/-- The same with two column axes. -/
def Rows3 (t : ℕ) {C D : ℕ} (X : (⟨3, ![256, C, D]⟩ : Shape).Idx → α) (A : (⟨3, ![65536, C, D]⟩ : Shape).Idx → α) : Prop :=
  ∀ y i, (i 0).val = 256 * t + (y 0).val → (i 1).val = (y 1).val → (i 2).val = (y 2).val → X y = A i

/-- Two matrices of one shape with equal entries at equal coordinates (a weight matrix as the kernel holds it and as
    the reference does). -/
def Same2 {R C : ℕ} (X A : (⟨2, ![R, C]⟩ : Shape).Idx → α) : Prop :=
  ∀ y i, (i 0).val = (y 0).val → (i 1).val = (y 1).val → X y = A i

/-- A [1, C] row that holds a length-C vector. -/
def RowOf {C : ℕ} (X : (⟨2, ![1, C]⟩ : Shape).Idx → α) (A : (⟨1, ![C]⟩ : Shape).Idx → α) : Prop :=
  ∀ y j, (j 0).val = (y 1).val → X y = A j

/-- A slice of columns `off … off + C' - 1` of a block of rows is that block of rows of the slice. -/
theorem Rows2.slice {C C' off : ℕ} {X : (⟨2, ![256, C]⟩ : Shape).Idx → α} {A : (⟨2, ![65536, C]⟩ : Shape).Idx → α}
    (h : Rows2 t X A)
    (hs : (⟨2, ![256, C]⟩ : Shape).Slices ![0, off] ⟨2, ![256, C']⟩)
    (hs' : (⟨2, ![65536, C]⟩ : Shape).Slices ![0, off] ⟨2, ![65536, C']⟩) :
    Rows2 t (extractStridedSlice ⟨2, ![256, C']⟩ ![0, off] X hs) (extractStridedSlice ⟨2, ![65536, C']⟩ ![0, off] A hs') := by
  intro y i h0 h1
  unfold extractStridedSlice
  refine h _ _ ?_ ?_
  · show 0 + (i 0).val = 256 * t + (0 + (y 0).val); omega
  · show off + (i 1).val = off + (y 1).val; omega

/-- Pointwise sums of blocks of rows. -/
theorem Rows2.addf {F : FTy → Type} [FloatOps F] {φ : FTy} {C : ℕ} {X Y : FVec F ⟨2, ![256, C]⟩ φ} {A B : FVec F ⟨2, ![65536, C]⟩ φ}
    (hX : Rows2 t X A) (hY : Rows2 t Y B) : Rows2 t (addf X Y) (addf A B) :=
  fun y i h0 h1 => congrArg₂ FloatOps.addf (hX y i h0 h1) (hY y i h0 h1)

/-- Pointwise products of blocks of rows. -/
theorem Rows2.mulf {F : FTy → Type} [FloatOps F] {φ : FTy} {C : ℕ} {X Y : FVec F ⟨2, ![256, C]⟩ φ} {A B : FVec F ⟨2, ![65536, C]⟩ φ}
    (hX : Rows2 t X A) (hY : Rows2 t Y B) : Rows2 t (mulf X Y) (mulf A B) :=
  fun y i h0 h1 => congrArg₂ FloatOps.mulf (hX y i h0 h1) (hY y i h0 h1)

/-- Pointwise products with two column axes. -/
theorem Rows3.mulf {F : FTy → Type} [FloatOps F] {φ : FTy} {C D : ℕ} {X Y : FVec F ⟨3, ![256, C, D]⟩ φ} {A B : FVec F ⟨3, ![65536, C, D]⟩ φ}
    (hX : Rows3 t X A) (hY : Rows3 t Y B) : Rows3 t (mulf X Y) (mulf A B) :=
  fun y i h0 h1 h2 => congrArg₂ FloatOps.mulf (hX y i h0 h1 h2) (hY y i h0 h1 h2)

/-- Two constant arrays of one value. -/
theorem Rows3.const {C D : ℕ} (x : α) (A : (⟨3, ![65536, C, D]⟩ : Shape).Idx → α) (hA : ∀ i, A i = x) :
    Rows3 t (broadcast ⟨3, ![256, C, D]⟩ x) A :=
  fun _ i _ _ _ => (hA i).symm

/-- The bias row: the kernel holds the length-512 bias as a [1, 512] row and repeats it over its 256 rows; the
    reference repeats the vector over all 65536 rows.  Either way the entry in column `j` of any row is entry `j`
    of the vector. -/
theorem Rows2.bias {X3 : (⟨2, ![1, 512]⟩ : Shape).Idx → α} {A3 : (⟨1, ![512]⟩ : Shape).Idx → α} (h : RowOf X3 A3)
    (hsc : (⟨2, ![1, 512]⟩ : Shape).ShapeCasts ⟨2, ![1, 512]⟩) (hb : (⟨2, ![1, 512]⟩ : Shape).Broadcasts ⟨2, ![256, 512]⟩)
    (hb1 : (⟨1, ![512]⟩ : Shape).BroadcastsInDim ⟨2, ![1, 512]⟩ ![1])
    (hb2 : (⟨2, ![1, 512]⟩ : Shape).BroadcastsInDim ⟨2, ![65536, 512]⟩ ![0, 1]) :
    Rows2 t (broadcastTo ⟨2, ![256, 512]⟩ (shapeCast ⟨2, ![1, 512]⟩ X3 hsc) hb)
      (broadcastInDim ⟨2, ![65536, 512]⟩ ![0, 1] hb2 (broadcastInDim ⟨2, ![1, 512]⟩ ![1] hb1 A3)) := by
  intro y i _ h1
  rw [shapeCast_self]
  have hy : (y 1).val < 512 := (y 1).isLt
  have hi : (i 1).val < 512 := (i 1).isLt
  refine (broadcastTo_apply X3 hb y (ValueIdx.ix2 ⟨0, Nat.one_pos⟩ ⟨(y 1).val, hy⟩) (fun a => match a with
    | ⟨0, _⟩ => by show 0 = if (1 : ℕ) = 1 then 0 else _; rw [if_pos rfl]
    | ⟨1, _⟩ => by show (y 1).val = if (512 : ℕ) = 1 then 0 else (y 1).val; rw [if_neg (by decide)])).trans ?_
  refine Eq.trans ?_ (broadcastInDim_apply ![0, 1] hb2 _ i (ValueIdx.ix2 ⟨0, Nat.one_pos⟩ ⟨(i 1).val, hi⟩) (fun a => match a with
    | ⟨0, _⟩ => by show 0 = if (1 : ℕ) = 1 then 0 else (i 0).val; rw [if_pos rfl]
    | ⟨1, _⟩ => by show (i 1).val = if (512 : ℕ) = 1 then 0 else (i 1).val; rw [if_neg (by decide)])).symm
  refine Eq.trans ?_ (broadcastInDim_apply ![1] hb1 A3 _ (ValueIdx.ix1 ⟨(i 1).val, hi⟩) (fun a => match a with
    | ⟨0, _⟩ => by show (i 1).val = if (512 : ℕ) = 1 then 0 else (i 1).val; rw [if_neg (by decide)])).symm
  exact h _ _ (by show (i 1).val = (y 1).val; exact h1)

/-- Splitting the 96 columns of each row into 32 groups of 3 commutes with taking a block of rows: the row-major
    position of an entry is its row times 96 plus its position inside the row, on both sides. -/
theorem Rows2.split_32_3 {X : (⟨2, ![256, 96]⟩ : Shape).Idx → α} {A : (⟨2, ![65536, 96]⟩ : Shape).Idx → α} (h : Rows2 t X A)
    (hc : (⟨2, ![256, 96]⟩ : Shape).ShapeCasts ⟨3, ![256, 32, 3]⟩) (hc' : (⟨2, ![65536, 96]⟩ : Shape).ShapeCasts ⟨3, ![65536, 32, 3]⟩) :
    Rows3 t (shapeCast ⟨3, ![256, 32, 3]⟩ X hc) (shapeCast ⟨3, ![65536, 32, 3]⟩ A hc') := by
  intro y i h0 h1 h2
  unfold shapeCast
  have e1 := Shape.rowMajor_reshapeEquiv hc y
  have e2 := Shape.rowMajor_reshapeEquiv hc' i
  rw [Shape.rowMajor_val_two, Shape.rowMajor_val_three] at e1 e2
  generalize Shape.reshapeEquiv hc y = u at e1 ⊢
  generalize Shape.reshapeEquiv hc' i = v at e2 ⊢
  have e1' : (u 0).val * 96 + (u 1).val = ((y 0).val * 32 + (y 1).val) * 3 + (y 2).val := e1
  have e2' : (v 0).val * 96 + (v 1).val = ((i 0).val * 32 + (i 1).val) * 3 + (i 2).val := e2
  have b1 : (u 1).val < 96 := (u 1).isLt
  have b2 : (v 1).val < 96 := (v 1).isLt
  have b3 : (y 1).val < 32 := (y 1).isLt
  have b4 : (y 2).val < 3 := (y 2).isLt
  exact h u v (by omega) (by omega)

/-- Splitting the 160 columns of each row into 32 groups of 5 commutes with taking a block of rows: the row-major
    position of an entry is its row times 160 plus its position inside the row, on both sides. -/
theorem Rows2.split_32_5 {X : (⟨2, ![256, 160]⟩ : Shape).Idx → α} {A : (⟨2, ![65536, 160]⟩ : Shape).Idx → α} (h : Rows2 t X A)
    (hc : (⟨2, ![256, 160]⟩ : Shape).ShapeCasts ⟨3, ![256, 32, 5]⟩) (hc' : (⟨2, ![65536, 160]⟩ : Shape).ShapeCasts ⟨3, ![65536, 32, 5]⟩) :
    Rows3 t (shapeCast ⟨3, ![256, 32, 5]⟩ X hc) (shapeCast ⟨3, ![65536, 32, 5]⟩ A hc') := by
  intro y i h0 h1 h2
  unfold shapeCast
  have e1 := Shape.rowMajor_reshapeEquiv hc y
  have e2 := Shape.rowMajor_reshapeEquiv hc' i
  rw [Shape.rowMajor_val_two, Shape.rowMajor_val_three] at e1 e2
  generalize Shape.reshapeEquiv hc y = u at e1 ⊢
  generalize Shape.reshapeEquiv hc' i = v at e2 ⊢
  have e1' : (u 0).val * 160 + (u 1).val = ((y 0).val * 32 + (y 1).val) * 5 + (y 2).val := e1
  have e2' : (v 0).val * 160 + (v 1).val = ((i 0).val * 32 + (i 1).val) * 5 + (i 2).val := e2
  have b1 : (u 1).val < 160 := (u 1).isLt
  have b2 : (v 1).val < 160 := (v 1).isLt
  have b3 : (y 1).val < 32 := (y 1).isLt
  have b4 : (y 2).val < 5 := (y 2).isLt
  exact h u v (by omega) (by omega)

/-- Splitting the 1024 columns of each row into 32 groups of 32 commutes with taking a block of rows: the row-major
    position of an entry is its row times 1024 plus its position inside the row, on both sides. -/
theorem Rows2.split_32_32 {X : (⟨2, ![256, 1024]⟩ : Shape).Idx → α} {A : (⟨2, ![65536, 1024]⟩ : Shape).Idx → α} (h : Rows2 t X A)
    (hc : (⟨2, ![256, 1024]⟩ : Shape).ShapeCasts ⟨3, ![256, 32, 32]⟩) (hc' : (⟨2, ![65536, 1024]⟩ : Shape).ShapeCasts ⟨3, ![65536, 32, 32]⟩) :
    Rows3 t (shapeCast ⟨3, ![256, 32, 32]⟩ X hc) (shapeCast ⟨3, ![65536, 32, 32]⟩ A hc') := by
  intro y i h0 h1 h2
  unfold shapeCast
  have e1 := Shape.rowMajor_reshapeEquiv hc y
  have e2 := Shape.rowMajor_reshapeEquiv hc' i
  rw [Shape.rowMajor_val_two, Shape.rowMajor_val_three] at e1 e2
  generalize Shape.reshapeEquiv hc y = u at e1 ⊢
  generalize Shape.reshapeEquiv hc' i = v at e2 ⊢
  have e1' : (u 0).val * 1024 + (u 1).val = ((y 0).val * 32 + (y 1).val) * 32 + (y 2).val := e1
  have e2' : (v 0).val * 1024 + (v 1).val = ((i 0).val * 32 + (i 1).val) * 32 + (i 2).val := e2
  have b1 : (u 1).val < 1024 := (u 1).isLt
  have b2 : (v 1).val < 1024 := (v 1).isLt
  have b3 : (y 1).val < 32 := (y 1).isLt
  have b4 : (y 2).val < 32 := (y 2).isLt
  exact h u v (by omega) (by omega)

/-- Flattening 32 groups of 3 columns of each row back into 96 columns commutes with taking a block of rows. -/
theorem Rows3.flatten_32_3 {X : (⟨3, ![256, 32, 3]⟩ : Shape).Idx → α} {A : (⟨3, ![65536, 32, 3]⟩ : Shape).Idx → α} (h : Rows3 t X A)
    (hc : (⟨3, ![256, 32, 3]⟩ : Shape).ShapeCasts ⟨2, ![256, 96]⟩) (hc' : (⟨3, ![65536, 32, 3]⟩ : Shape).ShapeCasts ⟨2, ![65536, 96]⟩) :
    Rows2 t (shapeCast ⟨2, ![256, 96]⟩ X hc) (shapeCast ⟨2, ![65536, 96]⟩ A hc') := by
  intro y i h0 h1
  unfold shapeCast
  have e1 := Shape.rowMajor_reshapeEquiv hc y
  have e2 := Shape.rowMajor_reshapeEquiv hc' i
  rw [Shape.rowMajor_val_three, Shape.rowMajor_val_two] at e1 e2
  generalize Shape.reshapeEquiv hc y = u at e1 ⊢
  generalize Shape.reshapeEquiv hc' i = v at e2 ⊢
  have e1' : ((u 0).val * 32 + (u 1).val) * 3 + (u 2).val = (y 0).val * 96 + (y 1).val := e1
  have e2' : ((v 0).val * 32 + (v 1).val) * 3 + (v 2).val = (i 0).val * 96 + (i 1).val := e2
  have b1 : (u 1).val < 32 := (u 1).isLt
  have b2 : (u 2).val < 3 := (u 2).isLt
  have b3 : (v 1).val < 32 := (v 1).isLt
  have b4 : (v 2).val < 3 := (v 2).isLt
  have b5 : (y 1).val < 96 := (y 1).isLt
  exact h u v (by omega) (by omega) (by omega)

/-- Flattening 32 groups of 5 columns of each row back into 160 columns commutes with taking a block of rows. -/
theorem Rows3.flatten_32_5 {X : (⟨3, ![256, 32, 5]⟩ : Shape).Idx → α} {A : (⟨3, ![65536, 32, 5]⟩ : Shape).Idx → α} (h : Rows3 t X A)
    (hc : (⟨3, ![256, 32, 5]⟩ : Shape).ShapeCasts ⟨2, ![256, 160]⟩) (hc' : (⟨3, ![65536, 32, 5]⟩ : Shape).ShapeCasts ⟨2, ![65536, 160]⟩) :
    Rows2 t (shapeCast ⟨2, ![256, 160]⟩ X hc) (shapeCast ⟨2, ![65536, 160]⟩ A hc') := by
  intro y i h0 h1
  unfold shapeCast
  have e1 := Shape.rowMajor_reshapeEquiv hc y
  have e2 := Shape.rowMajor_reshapeEquiv hc' i
  rw [Shape.rowMajor_val_three, Shape.rowMajor_val_two] at e1 e2
  generalize Shape.reshapeEquiv hc y = u at e1 ⊢
  generalize Shape.reshapeEquiv hc' i = v at e2 ⊢
  have e1' : ((u 0).val * 32 + (u 1).val) * 5 + (u 2).val = (y 0).val * 160 + (y 1).val := e1
  have e2' : ((v 0).val * 32 + (v 1).val) * 5 + (v 2).val = (i 0).val * 160 + (i 1).val := e2
  have b1 : (u 1).val < 32 := (u 1).isLt
  have b2 : (u 2).val < 5 := (u 2).isLt
  have b3 : (v 1).val < 32 := (v 1).isLt
  have b4 : (v 2).val < 5 := (v 2).isLt
  have b5 : (y 1).val < 160 := (y 1).isLt
  exact h u v (by omega) (by omega) (by omega)

/-- A concatenation of column blocks read at an index whose column falls in piece `k`, which starts at column
    `pre`: the piece at the same row and the column counted from `pre`. -/
theorem concat_cols_piece {R N : ℕ} (xs : List ((s : Shape) × (s.Idx → α)))
    (h : Shape.Concatenates (xs.map (·.1)) ⟨2, ![R, N]⟩ 1) (j : (⟨2, ![R, N]⟩ : Shape).Idx)
    (k : ℕ) (hk : k < xs.length) (Ck : ℕ) (x : (⟨2, ![R, Ck]⟩ : Shape).Idx → α) (hxk : xs[k] = ⟨⟨2, ![R, Ck]⟩, x⟩)
    (pre : ℕ)
    (hpre : (((xs.take k).map (·.1)).map fun s => if h : s.rank = (⟨2, ![R, N]⟩ : Shape).rank then s.size ((1 : Fin 2).cast h.symm) else 0).sum = pre)
    (c : ℕ) (hc : c < Ck) (hj : pre + c = (j 1).val) :
    concatenate ⟨2, ![R, N]⟩ 1 xs h j = x (ValueIdx.ix2 ⟨(j 0).val, (j 0).isLt⟩ ⟨c, hc⟩) :=
  concatenate_apply_piece 1 xs h j k hk _ x hxk rfl pre hpre _
    (fun b hb => match b with | ⟨0, _⟩ => rfl | ⟨1, _⟩ => absurd rfl hb) hj

/-- The output row: the kernel joins its three column blocks (128, 96 and 160 wide) in one concatenation, the
    reference joins the last two first and then the first with that; column `c` of the result is column `c`,
    `c - 128` or `c - 224` of the first, second or third block on both sides. -/
theorem Rows2.concat3 {P : (⟨2, ![256, 128]⟩ : Shape).Idx → α} {Q : (⟨2, ![256, 96]⟩ : Shape).Idx → α} {S : (⟨2, ![256, 160]⟩ : Shape).Idx → α}
    {P' : (⟨2, ![65536, 128]⟩ : Shape).Idx → α} {Q' : (⟨2, ![65536, 96]⟩ : Shape).Idx → α} {S' : (⟨2, ![65536, 160]⟩ : Shape).Idx → α}
    (hP : Rows2 t P P') (hQ : Rows2 t Q Q') (hS : Rows2 t S S')
    (hk : Shape.Concatenates ([(⟨⟨2, ![256, 128]⟩, P⟩ : (s : Shape) × (s.Idx → α)), ⟨⟨2, ![256, 96]⟩, Q⟩, ⟨⟨2, ![256, 160]⟩, S⟩].map (·.1)) ⟨2, ![256, 384]⟩ 1)
    (hin : Shape.Concatenates ([(⟨⟨2, ![65536, 96]⟩, Q'⟩ : (s : Shape) × (s.Idx → α)), ⟨⟨2, ![65536, 160]⟩, S'⟩].map (·.1)) ⟨2, ![65536, 256]⟩ 1)
    (hout : Shape.Concatenates ([(⟨⟨2, ![65536, 128]⟩, P'⟩ : (s : Shape) × (s.Idx → α)),
      ⟨⟨2, ![65536, 256]⟩, concatenate ⟨2, ![65536, 256]⟩ 1 [⟨⟨2, ![65536, 96]⟩, Q'⟩, ⟨⟨2, ![65536, 160]⟩, S'⟩] hin⟩].map (·.1)) ⟨2, ![65536, 384]⟩ 1) :
    Rows2 t (concatenate ⟨2, ![256, 384]⟩ 1 [⟨⟨2, ![256, 128]⟩, P⟩, ⟨⟨2, ![256, 96]⟩, Q⟩, ⟨⟨2, ![256, 160]⟩, S⟩] hk)
      (concatenate ⟨2, ![65536, 384]⟩ 1 [⟨⟨2, ![65536, 128]⟩, P'⟩,
        ⟨⟨2, ![65536, 256]⟩, concatenate ⟨2, ![65536, 256]⟩ 1 [⟨⟨2, ![65536, 96]⟩, Q'⟩, ⟨⟨2, ![65536, 160]⟩, S'⟩] hin⟩] hout) := by
  intro y i h0 h1
  have hy : (y 1).val < 384 := (y 1).isLt
  by_cases c1 : (y 1).val < 128
  · rw [concat_cols_piece _ hk y 0 (by simp) 128 P rfl 0 rfl (y 1).val c1 (by omega),
      concat_cols_piece _ hout i 0 (by simp) 128 P' rfl 0 rfl (i 1).val (by omega) (by omega)]
    exact hP _ _ h0 h1
  · by_cases c2 : (y 1).val < 224
    · rw [concat_cols_piece _ hk y 1 (by simp) 96 Q rfl 128 rfl ((y 1).val - 128) (by omega) (by omega),
        concat_cols_piece _ hout i 1 (by simp) 256 _ rfl 128 rfl ((i 1).val - 128) (by omega) (by omega),
        concat_cols_piece _ hin _ 0 (by simp) 96 Q' rfl 0 rfl ((i 1).val - 128) (by omega) (by show 0 + ((i 1).val - 128) = (i 1).val - 128; omega)]
      exact hQ _ _ h0 (by show (i 1).val - 128 = (y 1).val - 128; omega)
    · rw [concat_cols_piece _ hk y 2 (by simp) 160 S rfl 224 rfl ((y 1).val - 224) (by omega) (by omega),
        concat_cols_piece _ hout i 1 (by simp) 256 _ rfl 128 rfl ((i 1).val - 128) (by omega) (by omega),
        concat_cols_piece _ hin _ 1 (by simp) 160 S' rfl 96 rfl ((i 1).val - 128 - 96) (by omega) (by show 96 + ((i 1).val - 128 - 96) = (i 1).val - 128; omega)]
      exact hS _ _ h0 (by show (i 1).val - 128 - 96 = (y 1).val - 224; omega)

end Cert.RowBlocks

end
-- ==== Proof.KernelMatmul.lean ====
/-
  The kernel's matrix products read at an entry.  At the ideal values a `tpu.matmul` into a zero accumulator is, at
  each entry of the result, the plain sum over the contracted axis of the products of the two operands' entries that
  meet there: for the four products with a weight matrix, entry (row, c) is Σ_k left (row, k) · right (k, c); for the
  two per-row products of the equivariant part, entry (row, o, d) is Σ_k left (row, k, o) · right (row, k, d).  One
  section per dimension record of the printed program; the sum is re-indexed from the record's contraction index
  type to `Fin K` through the one-axis bijection.
-/
import proofs.«142764_j69234872812251_2_alg».proof.Proof.Gen.KernelIdeal
import Idealize.ShloMosaic.Lib.ValueIdx
import Idealize.ShloMosaic.PureOps.Ideal.Laws

noncomputable section

namespace Cert.KernelIdeal.MatmulRead

open Cert.KernelIdeal Cert.KernelIdeal.Gen Idealize.ShloMosaic Idealize.ShloMosaic.TcCoe

/-! ### `dot_S256x64_S64x512_S256x512_1_0_0_1_n_n`: rows × columns, one contracted axis of 64 -/

theorem lhs_film_0 (i : S256x512.Idx) (q : dot_S256x64_S64x512_S256x512_1_0_0_1_n_n.contr.Idx) : (dot_S256x64_S64x512_S256x512_1_0_0_1_n_n.lhsIdx i q 0).val = (i 0).val := by
  unfold DotDims.lhsIdx
  rw [dif_neg (show ¬(0 : Fin S256x64.rank) ∈ dot_S256x64_S64x512_S256x512_1_0_0_1_n_n.lhsBatch by decide), dif_pos (show (0 : Fin S256x64.rank) ∈ dot_S256x64_S64x512_S256x512_1_0_0_1_n_n.lhsNonContracting by decide)]
  rfl
theorem lhs_film_1 (i : S256x512.Idx) (q : dot_S256x64_S64x512_S256x512_1_0_0_1_n_n.contr.Idx) : (dot_S256x64_S64x512_S256x512_1_0_0_1_n_n.lhsIdx i q 1).val = (q ⟨0, by decide⟩).val :=
  dot_S256x64_S64x512_S256x512_1_0_0_1_n_n.lhsIdx_val_of_single rfl i q
theorem rhs_film_0 (i : S256x512.Idx) (q : dot_S256x64_S64x512_S256x512_1_0_0_1_n_n.contr.Idx) : (dot_S256x64_S64x512_S256x512_1_0_0_1_n_n.rhsIdx i q 0).val = (q ⟨0, by decide⟩).val :=
  dot_S256x64_S64x512_S256x512_1_0_0_1_n_n.rhsIdx_val_of_single rfl i q
theorem rhs_film_1 (i : S256x512.Idx) (q : dot_S256x64_S64x512_S256x512_1_0_0_1_n_n.contr.Idx) : (dot_S256x64_S64x512_S256x512_1_0_0_1_n_n.rhsIdx i q 1).val = (i 1).val := by
  unfold DotDims.rhsIdx
  rw [dif_neg (show ¬(1 : Fin S64x512.rank) ∈ dot_S256x64_S64x512_S256x512_1_0_0_1_n_n.rhsBatch by decide), dif_pos (show (1 : Fin S64x512.rank) ∈ dot_S256x64_S64x512_S256x512_1_0_0_1_n_n.rhsNonContracting by decide)]
  rfl
/-- The left operand's entry that meets contraction position `k` for the result's entry `i`: row of `i`, column `k`. -/
abbrev lidx_film (i : S256x512.Idx) (k : Fin 64) : S256x64.Idx := fun a => match a with
  | ⟨0, _⟩ => ⟨(i 0).val, (i 0).isLt⟩
  | ⟨1, _⟩ => ⟨k.val, k.isLt⟩
/-- The right operand's: row `k`, column of `i`. -/
abbrev ridx_film (i : S256x512.Idx) (k : Fin 64) : S64x512.Idx := fun a => match a with
  | ⟨0, _⟩ => ⟨k.val, k.isLt⟩
  | ⟨1, _⟩ => ⟨(i 1).val, (i 1).isLt⟩
/-- The product into a zero accumulator, at the ideal values, is the plain sum over the contracted axis. -/
theorem mm_film {φ₁ φ₂ : FTy} (l : FVec Ideal S256x64 φ₁) (r : FVec Ideal S64x512 φ₂) (i : S256x512.Idx) :
    matmul dot_S256x64_S64x512_S256x512_1_0_0_1_n_n none l r (constant (F := Ideal) S256x512 .f32 0x00000000#32) i = ∑ k : Fin 64, l (lidx_film i k) * r (ridx_film i k) := by
  refine (Ideal.matmul_constant_zero_apply dot_S256x64_S64x512_S256x512_1_0_0_1_n_n none l r i).trans ?_
  rw [← Equiv.sum_comp (ValueIdx.contrEquiv1 dot_S256x64_S64x512_S256x512_1_0_0_1_n_n 64 rfl rfl).symm]
  refine Finset.sum_congr rfl fun k _ => ?_
  have hk := ValueIdx.contrEquiv1_symm_val dot_S256x64_S64x512_S256x512_1_0_0_1_n_n 64 rfl rfl k
  have el : dot_S256x64_S64x512_S256x512_1_0_0_1_n_n.lhsIdx i ((ValueIdx.contrEquiv1 dot_S256x64_S64x512_S256x512_1_0_0_1_n_n 64 rfl rfl).symm k) = lidx_film i k := funext fun a => Fin.ext (by
    match a with
    | ⟨0, _⟩ => exact lhs_film_0 _ _
    | ⟨1, _⟩ => exact (lhs_film_1 _ _).trans hk)
  have er : dot_S256x64_S64x512_S256x512_1_0_0_1_n_n.rhsIdx i ((ValueIdx.contrEquiv1 dot_S256x64_S64x512_S256x512_1_0_0_1_n_n 64 rfl rfl).symm k) = ridx_film i k := funext fun a => Fin.ext (by
    match a with
    | ⟨0, _⟩ => exact (rhs_film_0 _ _).trans hk
    | ⟨1, _⟩ => exact rhs_film_1 _ _)
  rw [el, er]

/-! ### `dot_S256x256_S256x256_S256x256_1_0_0_1_n_n`: rows × columns, one contracted axis of 256 -/

theorem lhs_fc_0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_fc_1 (i : S256x256.Idx) (q : dot_S256x256_S256x256_S256x256_1_0_0_1_n_n.contr.Idx) : (dot_S256x256_S256x256_S256x256_1_0_0_1_n_n.lhsIdx i q 1).val = (q ⟨0, by decide⟩).val :=
  dot_S256x256_S256x256_S256x256_1_0_0_1_n_n.lhsIdx_val_of_single rfl i q
theorem rhs_fc_0 (i : S256x256.Idx) (q : dot_S256x256_S256x256_S256x256_1_0_0_1_n_n.contr.Idx) : (dot_S256x256_S256x256_S256x256_1_0_0_1_n_n.rhsIdx i q 0).val = (q ⟨0, by decide⟩).val :=
  dot_S256x256_S256x256_S256x256_1_0_0_1_n_n.rhsIdx_val_of_single rfl i q
theorem rhs_fc_1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl
/-- The left operand's entry that meets contraction position `k` for the result's entry `i`: row of `i`, column `k`. -/
abbrev lidx_fc (i : S256x256.Idx) (k : Fin 256) : S256x256.Idx := fun a => match a with
  | ⟨0, _⟩ => ⟨(i 0).val, (i 0).isLt⟩
  | ⟨1, _⟩ => ⟨k.val, k.isLt⟩
/-- The right operand's: row `k`, column of `i`. -/
abbrev ridx_fc (i : S256x256.Idx) (k : Fin 256) : S256x256.Idx := fun a => match a with
  | ⟨0, _⟩ => ⟨k.val, k.isLt⟩
  | ⟨1, _⟩ => ⟨(i 1).val, (i 1).isLt⟩
/-- The product into a zero accumulator, at the ideal values, is the plain sum over the contracted axis. -/
theorem mm_fc {φ₁ φ₂ : FTy} (l : FVec Ideal S256x256 φ₁) (r : FVec Ideal S256x256 φ₂) (i : S256x256.Idx) :
    matmul dot_S256x256_S256x256_S256x256_1_0_0_1_n_n none l r (constant (F := Ideal) S256x256 .f32 0x00000000#32) i = ∑ k : Fin 256, l (lidx_fc i k) * r (ridx_fc i k) := by
  refine (Ideal.matmul_constant_zero_apply dot_S256x256_S256x256_S256x256_1_0_0_1_n_n none l r i).trans ?_
  rw [← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx i ((ValueIdx.contrEquiv1 dot_S256x256_S256x256_S256x256_1_0_0_1_n_n 256 rfl rfl).symm k) = lidx_fc i k := funext fun a => Fin.ext (by
    match a with
    | ⟨0, _⟩ => exact lhs_fc_0 _ _
    | ⟨1, _⟩ => exact (lhs_fc_1 _ _).trans hk)
  have er : dot_S256x256_S256x256_S256x256_1_0_0_1_n_n.rhsIdx i ((ValueIdx.contrEquiv1 dot_S256x256_S256x256_S256x256_1_0_0_1_n_n 256 rfl rfl).symm k) = ridx_fc i k := funext fun a => Fin.ext (by
    match a with
    | ⟨0, _⟩ => exact (rhs_fc_0 _ _).trans hk
    | ⟨1, _⟩ => exact rhs_fc_1 _ _)
  rw [el, er]

/-! ### `dot_S256x256_S256x128_S256x128_1_0_0_1_n_n`: rows × columns, one contracted axis of 256 -/

theorem lhs_inv_0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem lhs_inv_1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem rhs_inv_0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem rhs_inv_1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl
/-- The left operand's entry that meets contraction position `k` for the result's entry `i`: row of `i`, column `k`. -/
abbrev lidx_inv (i : S256x128.Idx) (k : Fin 256) : S256x256.Idx := fun a => match a with
  | ⟨0, _⟩ => ⟨(i 0).val, (i 0).isLt⟩
  | ⟨1, _⟩ => ⟨k.val, k.isLt⟩
/-- The right operand's: row `k`, column of `i`. -/
abbrev ridx_inv (i : S256x128.Idx) (k : Fin 256) : S256x128.Idx := fun a => match a with
  | ⟨0, _⟩ => ⟨k.val, k.isLt⟩
  | ⟨1, _⟩ => ⟨(i 1).val, (i 1).isLt⟩
/-- The product into a zero accumulator, at the ideal values, is the plain sum over the contracted axis. -/
theorem mm_inv {φ₁ φ₂ : FTy} (l : FVec Ideal S256x256 φ₁) (r : FVec Ideal S256x128 φ₂) (i : S256x128.Idx) :
    matmul dot_S256x256_S256x128_S256x128_1_0_0_1_n_n none l r (constant (F := Ideal) S256x128 .f32 0x00000000#32) i = ∑ k : Fin 256, l (lidx_inv i k) * r (ridx_inv i k) := by
  refine (Ideal.matmul_constant_zero_apply dot_S256x256_S256x128_S256x128_1_0_0_1_n_n none l r i).trans ?_
  rw [← Equiv.sum_comp (ValueIdx.contrEquiv1 dot_S256x256_S256x128_S256x128_1_0_0_1_n_n 256 rfl rfl).symm]
  refine Finset.sum_congr rfl fun k _ => ?_
  have hk := ValueIdx.contrEquiv1_symm_val dot_S256x256_S256x128_S256x128_1_0_0_1_n_n 256 rfl rfl k
  have el : dot_S256x256_S256x128_S256x128_1_0_0_1_n_n.lhsIdx i ((ValueIdx.contrEquiv1 dot_S256x256_S256x128_S256x128_1_0_0_1_n_n 256 rfl rfl).symm k) = lidx_inv i k := funext fun a => Fin.ext (by
    match a with
    | ⟨0, _⟩ => exact lhs_inv_0 _ _
    | ⟨1, _⟩ => exact (lhs_inv_1 _ _).trans hk)
  have er : dot_S256x256_S256x128_S256x128_1_0_0_1_n_n.rhsIdx i ((ValueIdx.contrEquiv1 dot_S256x256_S256x128_S256x128_1_0_0_1_n_n 256 rfl rfl).symm k) = ridx_inv i k := funext fun a => Fin.ext (by
    match a with
    | ⟨0, _⟩ => exact (rhs_inv_0 _ _).trans hk
    | ⟨1, _⟩ => exact rhs_inv_1 _ _)
  rw [el, er]

/-! ### `dot_S256x256_S256x2048_S256x2048_1_0_0_1_n_n`: rows × columns, one contracted axis of 256 -/

theorem lhs_wemb_0 (i : S256x2048.Idx) (q : dot_S256x256_S256x2048_S256x2048_1_0_0_1_n_n.contr.Idx) : (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_wemb_1 (i : S256x2048.Idx) (q : dot_S256x256_S256x2048_S256x2048_1_0_0_1_n_n.contr.Idx) : (dot_S256x256_S256x2048_S256x2048_1_0_0_1_n_n.lhsIdx i q 1).val = (q ⟨0, by decide⟩).val :=
  dot_S256x256_S256x2048_S256x2048_1_0_0_1_n_n.lhsIdx_val_of_single rfl i q
theorem rhs_wemb_0 (i : S256x2048.Idx) (q : dot_S256x256_S256x2048_S256x2048_1_0_0_1_n_n.contr.Idx) : (dot_S256x256_S256x2048_S256x2048_1_0_0_1_n_n.rhsIdx i q 0).val = (q ⟨0, by decide⟩).val :=
  dot_S256x256_S256x2048_S256x2048_1_0_0_1_n_n.rhsIdx_val_of_single rfl i q
theorem rhs_wemb_1 (i : S256x2048.Idx) (q : dot_S256x256_S256x2048_S256x2048_1_0_0_1_n_n.contr.Idx) : (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl
/-- The left operand's entry that meets contraction position `k` for the result's entry `i`: row of `i`, column `k`. -/
abbrev lidx_wemb (i : S256x2048.Idx) (k : Fin 256) : S256x256.Idx := fun a => match a with
  | ⟨0, _⟩ => ⟨(i 0).val, (i 0).isLt⟩
  | ⟨1, _⟩ => ⟨k.val, k.isLt⟩
/-- The right operand's: row `k`, column of `i`. -/
abbrev ridx_wemb (i : S256x2048.Idx) (k : Fin 256) : S256x2048.Idx := fun a => match a with
  | ⟨0, _⟩ => ⟨k.val, k.isLt⟩
  | ⟨1, _⟩ => ⟨(i 1).val, (i 1).isLt⟩
/-- The product into a zero accumulator, at the ideal values, is the plain sum over the contracted axis. -/
theorem mm_wemb {φ₁ φ₂ : FTy} (l : FVec Ideal S256x256 φ₁) (r : FVec Ideal S256x2048 φ₂) (i : S256x2048.Idx) :
    matmul dot_S256x256_S256x2048_S256x2048_1_0_0_1_n_n none l r (constant (F := Ideal) S256x2048 .f32 0x00000000#32) i = ∑ k : Fin 256, l (lidx_wemb i k) * r (ridx_wemb i k) := by
  refine (Ideal.matmul_constant_zero_apply dot_S256x256_S256x2048_S256x2048_1_0_0_1_n_n none l r i).trans ?_
  rw [← Equiv.sum_comp (ValueIdx.contrEquiv1 dot_S256x256_S256x2048_S256x2048_1_0_0_1_n_n 256 rfl rfl).symm]
  refine Finset.sum_congr rfl fun k _ => ?_
  have hk := ValueIdx.contrEquiv1_symm_val dot_S256x256_S256x2048_S256x2048_1_0_0_1_n_n 256 rfl rfl k
  have el : dot_S256x256_S256x2048_S256x2048_1_0_0_1_n_n.lhsIdx i ((ValueIdx.contrEquiv1 dot_S256x256_S256x2048_S256x2048_1_0_0_1_n_n 256 rfl rfl).symm k) = lidx_wemb i k := funext fun a => Fin.ext (by
    match a with
    | ⟨0, _⟩ => exact lhs_wemb_0 _ _
    | ⟨1, _⟩ => exact (lhs_wemb_1 _ _).trans hk)
  have er : dot_S256x256_S256x2048_S256x2048_1_0_0_1_n_n.rhsIdx i ((ValueIdx.contrEquiv1 dot_S256x256_S256x2048_S256x2048_1_0_0_1_n_n 256 rfl rfl).symm k) = ridx_wemb i k := funext fun a => Fin.ext (by
    match a with
    | ⟨0, _⟩ => exact (rhs_wemb_0 _ _).trans hk
    | ⟨1, _⟩ => exact rhs_wemb_1 _ _)
  rw [el, er]

/-! ### `dot_S256x32x32_S256x32x3_S256x32x3_1_1_2_2_0_0`: one product per row — the row is a batch axis, the first column axis of both operands is contracted -/

theorem lhs_eq3_0 (i : S256x32x3.Idx) (q : dot_S256x32x32_S256x32x3_S256x32x3_1_1_2_2_0_0.contr.Idx) : (dot_S256x32x32_S256x32x3_S256x32x3_1_1_2_2_0_0.lhsIdx i q 0).val = (i 0).val := by
  unfold DotDims.lhsIdx
  rw [dif_pos (show (0 : Fin S256x32x32.rank) ∈ dot_S256x32x32_S256x32x3_S256x32x3_1_1_2_2_0_0.lhsBatch by decide)]
  rfl
theorem lhs_eq3_1 (i : S256x32x3.Idx) (q : dot_S256x32x32_S256x32x3_S256x32x3_1_1_2_2_0_0.contr.Idx) : (dot_S256x32x32_S256x32x3_S256x32x3_1_1_2_2_0_0.lhsIdx i q 1).val = (q ⟨0, by decide⟩).val :=
  dot_S256x32x32_S256x32x3_S256x32x3_1_1_2_2_0_0.lhsIdx_val_of_single rfl i q
theorem lhs_eq3_2 (i : S256x32x3.Idx) (q : dot_S256x32x32_S256x32x3_S256x32x3_1_1_2_2_0_0.contr.Idx) : (dot_S256x32x32_S256x32x3_S256x32x3_1_1_2_2_0_0.lhsIdx i q 2).val = (i 1).val := by
  unfold DotDims.lhsIdx
  rw [dif_neg (show ¬(2 : Fin S256x32x32.rank) ∈ dot_S256x32x32_S256x32x3_S256x32x3_1_1_2_2_0_0.lhsBatch by decide), dif_pos (show (2 : Fin S256x32x32.rank) ∈ dot_S256x32x32_S256x32x3_S256x32x3_1_1_2_2_0_0.lhsNonContracting by decide)]
  rfl
theorem rhs_eq3_0 (i : S256x32x3.Idx) (q : dot_S256x32x32_S256x32x3_S256x32x3_1_1_2_2_0_0.contr.Idx) : (dot_S256x32x32_S256x32x3_S256x32x3_1_1_2_2_0_0.rhsIdx i q 0).val = (i 0).val := by
  unfold DotDims.rhsIdx
  rw [dif_pos (show (0 : Fin S256x32x3.rank) ∈ dot_S256x32x32_S256x32x3_S256x32x3_1_1_2_2_0_0.rhsBatch by decide)]
  rfl
theorem rhs_eq3_1 (i : S256x32x3.Idx) (q : dot_S256x32x32_S256x32x3_S256x32x3_1_1_2_2_0_0.contr.Idx) : (dot_S256x32x32_S256x32x3_S256x32x3_1_1_2_2_0_0.rhsIdx i q 1).val = (q ⟨0, by decide⟩).val :=
  dot_S256x32x32_S256x32x3_S256x32x3_1_1_2_2_0_0.rhsIdx_val_of_single rfl i q
theorem rhs_eq3_2 (i : S256x32x3.Idx) (q : dot_S256x32x32_S256x32x3_S256x32x3_1_1_2_2_0_0.contr.Idx) : (dot_S256x32x32_S256x32x3_S256x32x3_1_1_2_2_0_0.rhsIdx i q 2).val = (i 2).val := by
  unfold DotDims.rhsIdx
  rw [dif_neg (show ¬(2 : Fin S256x32x3.rank) ∈ dot_S256x32x32_S256x32x3_S256x32x3_1_1_2_2_0_0.rhsBatch by decide), dif_pos (show (2 : Fin S256x32x3.rank) ∈ dot_S256x32x32_S256x32x3_S256x32x3_1_1_2_2_0_0.rhsNonContracting by decide)]
  rfl
/-- The left operand's entry for the result's entry `i` = (row, o, d) and contraction position `k`: (row, k, o). -/
abbrev lidx_eq3 (i : S256x32x3.Idx) (k : Fin 32) : S256x32x32.Idx := fun a => match a with
  | ⟨0, _⟩ => ⟨(i 0).val, (i 0).isLt⟩
  | ⟨1, _⟩ => ⟨k.val, k.isLt⟩
  | ⟨2, _⟩ => ⟨(i 1).val, (i 1).isLt⟩
/-- The right operand's: (row, k, d). -/
abbrev ridx_eq3 (i : S256x32x3.Idx) (k : Fin 32) : S256x32x3.Idx := fun a => match a with
  | ⟨0, _⟩ => ⟨(i 0).val, (i 0).isLt⟩
  | ⟨1, _⟩ => ⟨k.val, k.isLt⟩
  | ⟨2, _⟩ => ⟨(i 2).val, (i 2).isLt⟩
/-- The batched product into a zero accumulator, at the ideal values, is the plain sum over the contracted axis. -/
theorem mm_eq3 {φ₁ φ₂ : FTy} (l : FVec Ideal S256x32x32 φ₁) (r : FVec Ideal S256x32x3 φ₂) (i : S256x32x3.Idx) :
    matmul dot_S256x32x32_S256x32x3_S256x32x3_1_1_2_2_0_0 none l r (constant (F := Ideal) S256x32x3 .f32 0x00000000#32) i = ∑ k : Fin 32, l (lidx_eq3 i k) * r (ridx_eq3 i k) := by
  refine (Ideal.matmul_constant_zero_apply dot_S256x32x32_S256x32x3_S256x32x3_1_1_2_2_0_0 none l r i).trans ?_
  rw [← Equiv.sum_comp (ValueIdx.contrEquiv1 dot_S256x32x32_S256x32x3_S256x32x3_1_1_2_2_0_0 32 rfl rfl).symm]
  refine Finset.sum_congr rfl fun k _ => ?_
  have hk := ValueIdx.contrEquiv1_symm_val dot_S256x32x32_S256x32x3_S256x32x3_1_1_2_2_0_0 32 rfl rfl k
  have el : dot_S256x32x32_S256x32x3_S256x32x3_1_1_2_2_0_0.lhsIdx i ((ValueIdx.contrEquiv1 dot_S256x32x32_S256x32x3_S256x32x3_1_1_2_2_0_0 32 rfl rfl).symm k) = lidx_eq3 i k := funext fun a => Fin.ext (by
    match a with
    | ⟨0, _⟩ => exact lhs_eq3_0 _ _
    | ⟨1, _⟩ => exact (lhs_eq3_1 _ _).trans hk
    | ⟨2, _⟩ => exact lhs_eq3_2 _ _)
  have er : dot_S256x32x32_S256x32x3_S256x32x3_1_1_2_2_0_0.rhsIdx i ((ValueIdx.contrEquiv1 dot_S256x32x32_S256x32x3_S256x32x3_1_1_2_2_0_0 32 rfl rfl).symm k) = ridx_eq3 i k := funext fun a => Fin.ext (by
    match a with
    | ⟨0, _⟩ => exact rhs_eq3_0 _ _
    | ⟨1, _⟩ => exact (rhs_eq3_1 _ _).trans hk
    | ⟨2, _⟩ => exact rhs_eq3_2 _ _)
  rw [el, er]

/-! ### `dot_S256x32x32_S256x32x5_S256x32x5_1_1_2_2_0_0`: one product per row — the row is a batch axis, the first column axis of both operands is contracted -/

theorem lhs_eq5_0 (i : S256x32x5.Idx) (q : dot_S256x32x32_S256x32x5_S256x32x5_1_1_2_2_0_0.contr.Idx) : (dot_S256x32x32_S256x32x5_S256x32x5_1_1_2_2_0_0.lhsIdx i q 0).val = (i 0).val := by
  unfold DotDims.lhsIdx
  rw [dif_pos (show (0 : Fin S256x32x32.rank) ∈ dot_S256x32x32_S256x32x5_S256x32x5_1_1_2_2_0_0.lhsBatch by decide)]
  rfl
theorem lhs_eq5_1 (i : S256x32x5.Idx) (q : dot_S256x32x32_S256x32x5_S256x32x5_1_1_2_2_0_0.contr.Idx) : (dot_S256x32x32_S256x32x5_S256x32x5_1_1_2_2_0_0.lhsIdx i q 1).val = (q ⟨0, by decide⟩).val :=
  dot_S256x32x32_S256x32x5_S256x32x5_1_1_2_2_0_0.lhsIdx_val_of_single rfl i q
theorem lhs_eq5_2 (i : S256x32x5.Idx) (q : dot_S256x32x32_S256x32x5_S256x32x5_1_1_2_2_0_0.contr.Idx) : (dot_S256x32x32_S256x32x5_S256x32x5_1_1_2_2_0_0.lhsIdx i q 2).val = (i 1).val := by
  unfold DotDims.lhsIdx
  rw [dif_neg (show ¬(2 : Fin S256x32x32.rank) ∈ dot_S256x32x32_S256x32x5_S256x32x5_1_1_2_2_0_0.lhsBatch by decide), dif_pos (show (2 : Fin S256x32x32.rank) ∈ dot_S256x32x32_S256x32x5_S256x32x5_1_1_2_2_0_0.lhsNonContracting by decide)]
  rfl
theorem rhs_eq5_0 (i : S256x32x5.Idx) (q : dot_S256x32x32_S256x32x5_S256x32x5_1_1_2_2_0_0.contr.Idx) : (dot_S256x32x32_S256x32x5_S256x32x5_1_1_2_2_0_0.rhsIdx i q 0).val = (i 0).val := by
  unfold DotDims.rhsIdx
  rw [dif_pos (show (0 : Fin S256x32x5.rank) ∈ dot_S256x32x32_S256x32x5_S256x32x5_1_1_2_2_0_0.rhsBatch by decide)]
  rfl
theorem rhs_eq5_1 (i : S256x32x5.Idx) (q : dot_S256x32x32_S256x32x5_S256x32x5_1_1_2_2_0_0.contr.Idx) : (dot_S256x32x32_S256x32x5_S256x32x5_1_1_2_2_0_0.rhsIdx i q 1).val = (q ⟨0, by decide⟩).val :=
  dot_S256x32x32_S256x32x5_S256x32x5_1_1_2_2_0_0.rhsIdx_val_of_single rfl i q
theorem rhs_eq5_2 (i : S256x32x5.Idx) (q : dot_S256x32x32_S256x32x5_S256x32x5_1_1_2_2_0_0.contr.Idx) : (dot_S256x32x32_S256x32x5_S256x32x5_1_1_2_2_0_0.rhsIdx i q 2).val = (i 2).val := by
  unfold DotDims.rhsIdx
  rw [dif_neg (show ¬(2 : Fin S256x32x5.rank) ∈ dot_S256x32x32_S256x32x5_S256x32x5_1_1_2_2_0_0.rhsBatch by decide), dif_pos (show (2 : Fin S256x32x5.rank) ∈ dot_S256x32x32_S256x32x5_S256x32x5_1_1_2_2_0_0.rhsNonContracting by decide)]
  rfl
/-- The left operand's entry for the result's entry `i` = (row, o, d) and contraction position `k`: (row, k, o). -/
abbrev lidx_eq5 (i : S256x32x5.Idx) (k : Fin 32) : S256x32x32.Idx := fun a => match a with
  | ⟨0, _⟩ => ⟨(i 0).val, (i 0).isLt⟩
  | ⟨1, _⟩ => ⟨k.val, k.isLt⟩
  | ⟨2, _⟩ => ⟨(i 1).val, (i 1).isLt⟩
/-- The right operand's: (row, k, d). -/
abbrev ridx_eq5 (i : S256x32x5.Idx) (k : Fin 32) : S256x32x5.Idx := fun a => match a with
  | ⟨0, _⟩ => ⟨(i 0).val, (i 0).isLt⟩
  | ⟨1, _⟩ => ⟨k.val, k.isLt⟩
  | ⟨2, _⟩ => ⟨(i 2).val, (i 2).isLt⟩
/-- The batched product into a zero accumulator, at the ideal values, is the plain sum over the contracted axis. -/
theorem mm_eq5 {φ₁ φ₂ : FTy} (l : FVec Ideal S256x32x32 φ₁) (r : FVec Ideal S256x32x5 φ₂) (i : S256x32x5.Idx) :
    matmul dot_S256x32x32_S256x32x5_S256x32x5_1_1_2_2_0_0 none l r (constant (F := Ideal) S256x32x5 .f32 0x00000000#32) i = ∑ k : Fin 32, l (lidx_eq5 i k) * r (ridx_eq5 i k) := by
  refine (Ideal.matmul_constant_zero_apply dot_S256x32x32_S256x32x5_S256x32x5_1_1_2_2_0_0 none l r i).trans ?_
  rw [← Equiv.sum_comp (ValueIdx.contrEquiv1 dot_S256x32x32_S256x32x5_S256x32x5_1_1_2_2_0_0 32 rfl rfl).symm]
  refine Finset.sum_congr rfl fun k _ => ?_
  have hk := ValueIdx.contrEquiv1_symm_val dot_S256x32x32_S256x32x5_S256x32x5_1_1_2_2_0_0 32 rfl rfl k
  have el : dot_S256x32x32_S256x32x5_S256x32x5_1_1_2_2_0_0.lhsIdx i ((ValueIdx.contrEquiv1 dot_S256x32x32_S256x32x5_S256x32x5_1_1_2_2_0_0 32 rfl rfl).symm k) = lidx_eq5 i k := funext fun a => Fin.ext (by
    match a with
    | ⟨0, _⟩ => exact lhs_eq5_0 _ _
    | ⟨1, _⟩ => exact (lhs_eq5_1 _ _).trans hk
    | ⟨2, _⟩ => exact lhs_eq5_2 _ _)
  have er : dot_S256x32x32_S256x32x5_S256x32x5_1_1_2_2_0_0.rhsIdx i ((ValueIdx.contrEquiv1 dot_S256x32x32_S256x32x5_S256x32x5_1_1_2_2_0_0 32 rfl rfl).symm k) = ridx_eq5 i k := funext fun a => Fin.ext (by
    match a with
    | ⟨0, _⟩ => exact rhs_eq5_0 _ _
    | ⟨1, _⟩ => exact (rhs_eq5_1 _ _).trans hk
    | ⟨2, _⟩ => exact rhs_eq5_2 _ _)
  rw [el, er]

end Cert.KernelIdeal.MatmulRead

end
-- ==== Proof.ReferenceMatmul.lean ====
/-
  The reference's matrix products read at an entry.  At the ideal values the host's `dot_general` is, at each entry
  of the result, the plain sum over the contracted axis of the products of the two operands' entries that meet
  there: for the four products with a weight matrix, entry (row, c) is Σ_k left (row, k) · right (k, c); for the two
  per-row products (batch axis: the row), entry (row, o, d) is Σ_k left (row, k, o) · right (row, k, d).  One section
  per dimension record of the printed program.
-/
import proofs.«142764_j69234872812251_2_alg».proof.Proof.Gen.ReferenceIdeal
import Idealize.ShloMosaic.Lib.ValueIdx
import Idealize.ShloMosaic.PureOps.Ideal.Laws

noncomputable section

namespace Cert.ReferenceIdeal.MatmulRead

open Cert.ReferenceIdeal Cert.ReferenceIdeal.Gen Idealize.ShloMosaic Idealize.ShloMosaic.TcCoe

/-! ### `dot_S65536x64_S64x512_S65536x512_1_0_0_1_n_n`: rows × columns, one contracted axis of 64 -/

theorem lhs_film_0 (i : S65536x512.Idx) (q : dot_S65536x64_S64x512_S65536x512_1_0_0_1_n_n.contr.Idx) : (dot_S65536x64_S64x512_S65536x512_1_0_0_1_n_n.lhsIdx i q 0).val = (i 0).val := by
  unfold DotDims.lhsIdx
  rw [dif_neg (show ¬(0 : Fin S65536x64.rank) ∈ dot_S65536x64_S64x512_S65536x512_1_0_0_1_n_n.lhsBatch by decide), dif_pos (show (0 : Fin S65536x64.rank) ∈ dot_S65536x64_S64x512_S65536x512_1_0_0_1_n_n.lhsNonContracting by decide)]
  rfl
theorem lhs_film_1 (i : S65536x512.Idx) (q : dot_S65536x64_S64x512_S65536x512_1_0_0_1_n_n.contr.Idx) : (dot_S65536x64_S64x512_S65536x512_1_0_0_1_n_n.lhsIdx i q 1).val = (q ⟨0, by decide⟩).val :=
  dot_S65536x64_S64x512_S65536x512_1_0_0_1_n_n.lhsIdx_val_of_single rfl i q
theorem rhs_film_0 (i : S65536x512.Idx) (q : dot_S65536x64_S64x512_S65536x512_1_0_0_1_n_n.contr.Idx) : (dot_S65536x64_S64x512_S65536x512_1_0_0_1_n_n.rhsIdx i q 0).val = (q ⟨0, by decide⟩).val :=
  dot_S65536x64_S64x512_S65536x512_1_0_0_1_n_n.rhsIdx_val_of_single rfl i q
theorem rhs_film_1 (i : S65536x512.Idx) (q : dot_S65536x64_S64x512_S65536x512_1_0_0_1_n_n.contr.Idx) : (dot_S65536x64_S64x512_S65536x512_1_0_0_1_n_n.rhsIdx i q 1).val = (i 1).val := by
  unfold DotDims.rhsIdx
  rw [dif_neg (show ¬(1 : Fin S64x512.rank) ∈ dot_S65536x64_S64x512_S65536x512_1_0_0_1_n_n.rhsBatch by decide), dif_pos (show (1 : Fin S64x512.rank) ∈ dot_S65536x64_S64x512_S65536x512_1_0_0_1_n_n.rhsNonContracting by decide)]
  rfl
/-- The left operand's entry that meets contraction position `k` for the result's entry `i`: row of `i`, column `k`. -/
abbrev lidx_film (i : S65536x512.Idx) (k : Fin 64) : S65536x64.Idx := fun a => match a with
  | ⟨0, _⟩ => ⟨(i 0).val, (i 0).isLt⟩
  | ⟨1, _⟩ => ⟨k.val, k.isLt⟩
/-- The right operand's: row `k`, column of `i`. -/
abbrev ridx_film (i : S65536x512.Idx) (k : Fin 64) : S64x512.Idx := fun a => match a with
  | ⟨0, _⟩ => ⟨k.val, k.isLt⟩
  | ⟨1, _⟩ => ⟨(i 1).val, (i 1).isLt⟩
/-- The host's product, at the ideal values, is the plain sum over the contracted axis. -/
theorem mm_film {φ₁ φ₂ : FTy} (l : FVec Ideal S65536x64 φ₁) (r : FVec Ideal S64x512 φ₂) (i : S65536x512.Idx) :
    Host.dotGeneral dot_S65536x64_S64x512_S65536x512_1_0_0_1_n_n none l r i = ∑ k : Fin 64, l (lidx_film i k) * r (ridx_film i k) := by
  refine (Ideal.dotGeneral_apply dot_S65536x64_S64x512_S65536x512_1_0_0_1_n_n none .single l r i).trans ?_
  rw [← Equiv.sum_comp (ValueIdx.contrEquiv1 dot_S65536x64_S64x512_S65536x512_1_0_0_1_n_n 64 rfl rfl).symm]
  refine Finset.sum_congr rfl fun k _ => ?_
  have hk := ValueIdx.contrEquiv1_symm_val dot_S65536x64_S64x512_S65536x512_1_0_0_1_n_n 64 rfl rfl k
  have el : dot_S65536x64_S64x512_S65536x512_1_0_0_1_n_n.lhsIdx i ((ValueIdx.contrEquiv1 dot_S65536x64_S64x512_S65536x512_1_0_0_1_n_n 64 rfl rfl).symm k) = lidx_film i k := funext fun a => Fin.ext (by
    match a with
    | ⟨0, _⟩ => exact lhs_film_0 _ _
    | ⟨1, _⟩ => exact (lhs_film_1 _ _).trans hk)
  have er : dot_S65536x64_S64x512_S65536x512_1_0_0_1_n_n.rhsIdx i ((ValueIdx.contrEquiv1 dot_S65536x64_S64x512_S65536x512_1_0_0_1_n_n 64 rfl rfl).symm k) = ridx_film i k := funext fun a => Fin.ext (by
    match a with
    | ⟨0, _⟩ => exact (rhs_film_0 _ _).trans hk
    | ⟨1, _⟩ => exact rhs_film_1 _ _)
  rw [el, er]

/-! ### `dot_S65536x256_S256x256_S65536x256_1_0_0_1_n_n`: rows × columns, one contracted axis of 256 -/

theorem lhs_fc_0 (i : S65536x256.Idx) (q : dot_S65536x256_S256x256_S65536x256_1_0_0_1_n_n.contr.Idx) : (dot_S65536x256_S256x256_S65536x256_1_0_0_1_n_n.lhsIdx i q 0).val = (i 0).val := by
  unfold DotDims.lhsIdx
  rw [dif_neg (show ¬(0 : Fin S65536x256.rank) ∈ dot_S65536x256_S256x256_S65536x256_1_0_0_1_n_n.lhsBatch by decide), dif_pos (show (0 : Fin S65536x256.rank) ∈ dot_S65536x256_S256x256_S65536x256_1_0_0_1_n_n.lhsNonContracting by decide)]
  rfl
theorem lhs_fc_1 (i : S65536x256.Idx) (q : dot_S65536x256_S256x256_S65536x256_1_0_0_1_n_n.contr.Idx) : (dot_S65536x256_S256x256_S65536x256_1_0_0_1_n_n.lhsIdx i q 1).val = (q ⟨0, by decide⟩).val :=
  dot_S65536x256_S256x256_S65536x256_1_0_0_1_n_n.lhsIdx_val_of_single rfl i q
theorem rhs_fc_0 (i : S65536x256.Idx) (q : dot_S65536x256_S256x256_S65536x256_1_0_0_1_n_n.contr.Idx) : (dot_S65536x256_S256x256_S65536x256_1_0_0_1_n_n.rhsIdx i q 0).val = (q ⟨0, by decide⟩).val :=
  dot_S65536x256_S256x256_S65536x256_1_0_0_1_n_n.rhsIdx_val_of_single rfl i q
theorem rhs_fc_1 (i : S65536x256.Idx) (q : dot_S65536x256_S256x256_S65536x256_1_0_0_1_n_n.contr.Idx) : (dot_S65536x256_S256x256_S65536x256_1_0_0_1_n_n.rhsIdx i q 1).val = (i 1).val := by
  unfold DotDims.rhsIdx
  rw [dif_neg (show ¬(1 : Fin S256x256.rank) ∈ dot_S65536x256_S256x256_S65536x256_1_0_0_1_n_n.rhsBatch by decide), dif_pos (show (1 : Fin S256x256.rank) ∈ dot_S65536x256_S256x256_S65536x256_1_0_0_1_n_n.rhsNonContracting by decide)]
  rfl
/-- The left operand's entry that meets contraction position `k` for the result's entry `i`: row of `i`, column `k`. -/
abbrev lidx_fc (i : S65536x256.Idx) (k : Fin 256) : S65536x256.Idx := fun a => match a with
  | ⟨0, _⟩ => ⟨(i 0).val, (i 0).isLt⟩
  | ⟨1, _⟩ => ⟨k.val, k.isLt⟩
/-- The right operand's: row `k`, column of `i`. -/
abbrev ridx_fc (i : S65536x256.Idx) (k : Fin 256) : S256x256.Idx := fun a => match a with
  | ⟨0, _⟩ => ⟨k.val, k.isLt⟩
  | ⟨1, _⟩ => ⟨(i 1).val, (i 1).isLt⟩
/-- The host's product, at the ideal values, is the plain sum over the contracted axis. -/
theorem mm_fc {φ₁ φ₂ : FTy} (l : FVec Ideal S65536x256 φ₁) (r : FVec Ideal S256x256 φ₂) (i : S65536x256.Idx) :
    Host.dotGeneral dot_S65536x256_S256x256_S65536x256_1_0_0_1_n_n none l r i = ∑ k : Fin 256, l (lidx_fc i k) * r (ridx_fc i k) := by
  refine (Ideal.dotGeneral_apply dot_S65536x256_S256x256_S65536x256_1_0_0_1_n_n none .single l r i).trans ?_
  rw [← Equiv.sum_comp (ValueIdx.contrEquiv1 dot_S65536x256_S256x256_S65536x256_1_0_0_1_n_n 256 rfl rfl).symm]
  refine Finset.sum_congr rfl fun k _ => ?_
  have hk := ValueIdx.contrEquiv1_symm_val dot_S65536x256_S256x256_S65536x256_1_0_0_1_n_n 256 rfl rfl k
  have el : dot_S65536x256_S256x256_S65536x256_1_0_0_1_n_n.lhsIdx i ((ValueIdx.contrEquiv1 dot_S65536x256_S256x256_S65536x256_1_0_0_1_n_n 256 rfl rfl).symm k) = lidx_fc i k := funext fun a => Fin.ext (by
    match a with
    | ⟨0, _⟩ => exact lhs_fc_0 _ _
    | ⟨1, _⟩ => exact (lhs_fc_1 _ _).trans hk)
  have er : dot_S65536x256_S256x256_S65536x256_1_0_0_1_n_n.rhsIdx i ((ValueIdx.contrEquiv1 dot_S65536x256_S256x256_S65536x256_1_0_0_1_n_n 256 rfl rfl).symm k) = ridx_fc i k := funext fun a => Fin.ext (by
    match a with
    | ⟨0, _⟩ => exact (rhs_fc_0 _ _).trans hk
    | ⟨1, _⟩ => exact rhs_fc_1 _ _)
  rw [el, er]

/-! ### `dot_S65536x256_S256x128_S65536x128_1_0_0_1_n_n`: rows × columns, one contracted axis of 256 -/

theorem lhs_inv_0 (i : S65536x128.Idx) (q : dot_S65536x256_S256x128_S65536x128_1_0_0_1_n_n.contr.Idx) : (dot_S65536x256_S256x128_S65536x128_1_0_0_1_n_n.lhsIdx i q 0).val = (i 0).val := by
  unfold DotDims.lhsIdx
  rw [dif_neg (show ¬(0 : Fin S65536x256.rank) ∈ dot_S65536x256_S256x128_S65536x128_1_0_0_1_n_n.lhsBatch by decide), dif_pos (show (0 : Fin S65536x256.rank) ∈ dot_S65536x256_S256x128_S65536x128_1_0_0_1_n_n.lhsNonContracting by decide)]
  rfl
theorem lhs_inv_1 (i : S65536x128.Idx) (q : dot_S65536x256_S256x128_S65536x128_1_0_0_1_n_n.contr.Idx) : (dot_S65536x256_S256x128_S65536x128_1_0_0_1_n_n.lhsIdx i q 1).val = (q ⟨0, by decide⟩).val :=
  dot_S65536x256_S256x128_S65536x128_1_0_0_1_n_n.lhsIdx_val_of_single rfl i q
theorem rhs_inv_0 (i : S65536x128.Idx) (q : dot_S65536x256_S256x128_S65536x128_1_0_0_1_n_n.contr.Idx) : (dot_S65536x256_S256x128_S65536x128_1_0_0_1_n_n.rhsIdx i q 0).val = (q ⟨0, by decide⟩).val :=
  dot_S65536x256_S256x128_S65536x128_1_0_0_1_n_n.rhsIdx_val_of_single rfl i q
theorem rhs_inv_1 (i : S65536x128.Idx) (q : dot_S65536x256_S256x128_S65536x128_1_0_0_1_n_n.contr.Idx) : (dot_S65536x256_S256x128_S65536x128_1_0_0_1_n_n.rhsIdx i q 1).val = (i 1).val := by
  unfold DotDims.rhsIdx
  rw [dif_neg (show ¬(1 : Fin S256x128.rank) ∈ dot_S65536x256_S256x128_S65536x128_1_0_0_1_n_n.rhsBatch by decide), dif_pos (show (1 : Fin S256x128.rank) ∈ dot_S65536x256_S256x128_S65536x128_1_0_0_1_n_n.rhsNonContracting by decide)]
  rfl
/-- The left operand's entry that meets contraction position `k` for the result's entry `i`: row of `i`, column `k`. -/
abbrev lidx_inv (i : S65536x128.Idx) (k : Fin 256) : S65536x256.Idx := fun a => match a with
  | ⟨0, _⟩ => ⟨(i 0).val, (i 0).isLt⟩
  | ⟨1, _⟩ => ⟨k.val, k.isLt⟩
/-- The right operand's: row `k`, column of `i`. -/
abbrev ridx_inv (i : S65536x128.Idx) (k : Fin 256) : S256x128.Idx := fun a => match a with
  | ⟨0, _⟩ => ⟨k.val, k.isLt⟩
  | ⟨1, _⟩ => ⟨(i 1).val, (i 1).isLt⟩
/-- The host's product, at the ideal values, is the plain sum over the contracted axis. -/
theorem mm_inv {φ₁ φ₂ : FTy} (l : FVec Ideal S65536x256 φ₁) (r : FVec Ideal S256x128 φ₂) (i : S65536x128.Idx) :
    Host.dotGeneral dot_S65536x256_S256x128_S65536x128_1_0_0_1_n_n none l r i = ∑ k : Fin 256, l (lidx_inv i k) * r (ridx_inv i k) := by
  refine (Ideal.dotGeneral_apply dot_S65536x256_S256x128_S65536x128_1_0_0_1_n_n none .single l r i).trans ?_
  rw [← Equiv.sum_comp (ValueIdx.contrEquiv1 dot_S65536x256_S256x128_S65536x128_1_0_0_1_n_n 256 rfl rfl).symm]
  refine Finset.sum_congr rfl fun k _ => ?_
  have hk := ValueIdx.contrEquiv1_symm_val dot_S65536x256_S256x128_S65536x128_1_0_0_1_n_n 256 rfl rfl k
  have el : dot_S65536x256_S256x128_S65536x128_1_0_0_1_n_n.lhsIdx i ((ValueIdx.contrEquiv1 dot_S65536x256_S256x128_S65536x128_1_0_0_1_n_n 256 rfl rfl).symm k) = lidx_inv i k := funext fun a => Fin.ext (by
    match a with
    | ⟨0, _⟩ => exact lhs_inv_0 _ _
    | ⟨1, _⟩ => exact (lhs_inv_1 _ _).trans hk)
  have er : dot_S65536x256_S256x128_S65536x128_1_0_0_1_n_n.rhsIdx i ((ValueIdx.contrEquiv1 dot_S65536x256_S256x128_S65536x128_1_0_0_1_n_n 256 rfl rfl).symm k) = ridx_inv i k := funext fun a => Fin.ext (by
    match a with
    | ⟨0, _⟩ => exact (rhs_inv_0 _ _).trans hk
    | ⟨1, _⟩ => exact rhs_inv_1 _ _)
  rw [el, er]

/-! ### `dot_S65536x256_S256x2048_S65536x2048_1_0_0_1_n_n`: rows × columns, one contracted axis of 256 -/

theorem lhs_wemb_0 (i : S65536x2048.Idx) (q : dot_S65536x256_S256x2048_S65536x2048_1_0_0_1_n_n.contr.Idx) : (dot_S65536x256_S256x2048_S65536x2048_1_0_0_1_n_n.lhsIdx i q 0).val = (i 0).val := by
  unfold DotDims.lhsIdx
  rw [dif_neg (show ¬(0 : Fin S65536x256.rank) ∈ dot_S65536x256_S256x2048_S65536x2048_1_0_0_1_n_n.lhsBatch by decide), dif_pos (show (0 : Fin S65536x256.rank) ∈ dot_S65536x256_S256x2048_S65536x2048_1_0_0_1_n_n.lhsNonContracting by decide)]
  rfl
theorem lhs_wemb_1 (i : S65536x2048.Idx) (q : dot_S65536x256_S256x2048_S65536x2048_1_0_0_1_n_n.contr.Idx) : (dot_S65536x256_S256x2048_S65536x2048_1_0_0_1_n_n.lhsIdx i q 1).val = (q ⟨0, by decide⟩).val :=
  dot_S65536x256_S256x2048_S65536x2048_1_0_0_1_n_n.lhsIdx_val_of_single rfl i q
theorem rhs_wemb_0 (i : S65536x2048.Idx) (q : dot_S65536x256_S256x2048_S65536x2048_1_0_0_1_n_n.contr.Idx) : (dot_S65536x256_S256x2048_S65536x2048_1_0_0_1_n_n.rhsIdx i q 0).val = (q ⟨0, by decide⟩).val :=
  dot_S65536x256_S256x2048_S65536x2048_1_0_0_1_n_n.rhsIdx_val_of_single rfl i q
theorem rhs_wemb_1 (i : S65536x2048.Idx) (q : dot_S65536x256_S256x2048_S65536x2048_1_0_0_1_n_n.contr.Idx) : (dot_S65536x256_S256x2048_S65536x2048_1_0_0_1_n_n.rhsIdx i q 1).val = (i 1).val := by
  unfold DotDims.rhsIdx
  rw [dif_neg (show ¬(1 : Fin S256x2048.rank) ∈ dot_S65536x256_S256x2048_S65536x2048_1_0_0_1_n_n.rhsBatch by decide), dif_pos (show (1 : Fin S256x2048.rank) ∈ dot_S65536x256_S256x2048_S65536x2048_1_0_0_1_n_n.rhsNonContracting by decide)]
  rfl
/-- The left operand's entry that meets contraction position `k` for the result's entry `i`: row of `i`, column `k`. -/
abbrev lidx_wemb (i : S65536x2048.Idx) (k : Fin 256) : S65536x256.Idx := fun a => match a with
  | ⟨0, _⟩ => ⟨(i 0).val, (i 0).isLt⟩
  | ⟨1, _⟩ => ⟨k.val, k.isLt⟩
/-- The right operand's: row `k`, column of `i`. -/
abbrev ridx_wemb (i : S65536x2048.Idx) (k : Fin 256) : S256x2048.Idx := fun a => match a with
  | ⟨0, _⟩ => ⟨k.val, k.isLt⟩
  | ⟨1, _⟩ => ⟨(i 1).val, (i 1).isLt⟩
/-- The host's product, at the ideal values, is the plain sum over the contracted axis. -/
theorem mm_wemb {φ₁ φ₂ : FTy} (l : FVec Ideal S65536x256 φ₁) (r : FVec Ideal S256x2048 φ₂) (i : S65536x2048.Idx) :
    Host.dotGeneral dot_S65536x256_S256x2048_S65536x2048_1_0_0_1_n_n none l r i = ∑ k : Fin 256, l (lidx_wemb i k) * r (ridx_wemb i k) := by
  refine (Ideal.dotGeneral_apply dot_S65536x256_S256x2048_S65536x2048_1_0_0_1_n_n none .single l r i).trans ?_
  rw [← Equiv.sum_comp (ValueIdx.contrEquiv1 dot_S65536x256_S256x2048_S65536x2048_1_0_0_1_n_n 256 rfl rfl).symm]
  refine Finset.sum_congr rfl fun k _ => ?_
  have hk := ValueIdx.contrEquiv1_symm_val dot_S65536x256_S256x2048_S65536x2048_1_0_0_1_n_n 256 rfl rfl k
  have el : dot_S65536x256_S256x2048_S65536x2048_1_0_0_1_n_n.lhsIdx i ((ValueIdx.contrEquiv1 dot_S65536x256_S256x2048_S65536x2048_1_0_0_1_n_n 256 rfl rfl).symm k) = lidx_wemb i k := funext fun a => Fin.ext (by
    match a with
    | ⟨0, _⟩ => exact lhs_wemb_0 _ _
    | ⟨1, _⟩ => exact (lhs_wemb_1 _ _).trans hk)
  have er : dot_S65536x256_S256x2048_S65536x2048_1_0_0_1_n_n.rhsIdx i ((ValueIdx.contrEquiv1 dot_S65536x256_S256x2048_S65536x2048_1_0_0_1_n_n 256 rfl rfl).symm k) = ridx_wemb i k := funext fun a => Fin.ext (by
    match a with
    | ⟨0, _⟩ => exact (rhs_wemb_0 _ _).trans hk
    | ⟨1, _⟩ => exact rhs_wemb_1 _ _)
  rw [el, er]

/-! ### `dot_S65536x32x32_S65536x32x3_S65536x32x3_1_1_2_2_0_0`: one product per row — the row is a batch axis, the first column axis of both operands is contracted -/

theorem lhs_eq3_0 (i : S65536x32x3.Idx) (q : dot_S65536x32x32_S65536x32x3_S65536x32x3_1_1_2_2_0_0.contr.Idx) : (dot_S65536x32x32_S65536x32x3_S65536x32x3_1_1_2_2_0_0.lhsIdx i q 0).val = (i 0).val := by
  unfold DotDims.lhsIdx
  rw [dif_pos (show (0 : Fin S65536x32x32.rank) ∈ dot_S65536x32x32_S65536x32x3_S65536x32x3_1_1_2_2_0_0.lhsBatch by decide)]
  rfl
theorem lhs_eq3_1 (i : S65536x32x3.Idx) (q : dot_S65536x32x32_S65536x32x3_S65536x32x3_1_1_2_2_0_0.contr.Idx) : (dot_S65536x32x32_S65536x32x3_S65536x32x3_1_1_2_2_0_0.lhsIdx i q 1).val = (q ⟨0, by decide⟩).val :=
  dot_S65536x32x32_S65536x32x3_S65536x32x3_1_1_2_2_0_0.lhsIdx_val_of_single rfl i q
theorem lhs_eq3_2 (i : S65536x32x3.Idx) (q : dot_S65536x32x32_S65536x32x3_S65536x32x3_1_1_2_2_0_0.contr.Idx) : (dot_S65536x32x32_S65536x32x3_S65536x32x3_1_1_2_2_0_0.lhsIdx i q 2).val = (i 1).val := by
  unfold DotDims.lhsIdx
  rw [dif_neg (show ¬(2 : Fin S65536x32x32.rank) ∈ dot_S65536x32x32_S65536x32x3_S65536x32x3_1_1_2_2_0_0.lhsBatch by decide), dif_pos (show (2 : Fin S65536x32x32.rank) ∈ dot_S65536x32x32_S65536x32x3_S65536x32x3_1_1_2_2_0_0.lhsNonContracting by decide)]
  rfl
theorem rhs_eq3_0 (i : S65536x32x3.Idx) (q : dot_S65536x32x32_S65536x32x3_S65536x32x3_1_1_2_2_0_0.contr.Idx) : (dot_S65536x32x32_S65536x32x3_S65536x32x3_1_1_2_2_0_0.rhsIdx i q 0).val = (i 0).val := by
  unfold DotDims.rhsIdx
  rw [dif_pos (show (0 : Fin S65536x32x3.rank) ∈ dot_S65536x32x32_S65536x32x3_S65536x32x3_1_1_2_2_0_0.rhsBatch by decide)]
  rfl
theorem rhs_eq3_1 (i : S65536x32x3.Idx) (q : dot_S65536x32x32_S65536x32x3_S65536x32x3_1_1_2_2_0_0.contr.Idx) : (dot_S65536x32x32_S65536x32x3_S65536x32x3_1_1_2_2_0_0.rhsIdx i q 1).val = (q ⟨0, by decide⟩).val :=
  dot_S65536x32x32_S65536x32x3_S65536x32x3_1_1_2_2_0_0.rhsIdx_val_of_single rfl i q
theorem rhs_eq3_2 (i : S65536x32x3.Idx) (q : dot_S65536x32x32_S65536x32x3_S65536x32x3_1_1_2_2_0_0.contr.Idx) : (dot_S65536x32x32_S65536x32x3_S65536x32x3_1_1_2_2_0_0.rhsIdx i q 2).val = (i 2).val := by
  unfold DotDims.rhsIdx
  rw [dif_neg (show ¬(2 : Fin S65536x32x3.rank) ∈ dot_S65536x32x32_S65536x32x3_S65536x32x3_1_1_2_2_0_0.rhsBatch by decide), dif_pos (show (2 : Fin S65536x32x3.rank) ∈ dot_S65536x32x32_S65536x32x3_S65536x32x3_1_1_2_2_0_0.rhsNonContracting by decide)]
  rfl
/-- The left operand's entry for the result's entry `i` = (row, o, d) and contraction position `k`: (row, k, o). -/
abbrev lidx_eq3 (i : S65536x32x3.Idx) (k : Fin 32) : S65536x32x32.Idx := fun a => match a with
  | ⟨0, _⟩ => ⟨(i 0).val, (i 0).isLt⟩
  | ⟨1, _⟩ => ⟨k.val, k.isLt⟩
  | ⟨2, _⟩ => ⟨(i 1).val, (i 1).isLt⟩
/-- The right operand's: (row, k, d). -/
abbrev ridx_eq3 (i : S65536x32x3.Idx) (k : Fin 32) : S65536x32x3.Idx := fun a => match a with
  | ⟨0, _⟩ => ⟨(i 0).val, (i 0).isLt⟩
  | ⟨1, _⟩ => ⟨k.val, k.isLt⟩
  | ⟨2, _⟩ => ⟨(i 2).val, (i 2).isLt⟩
/-- The host's batched product, at the ideal values, is the plain sum over the contracted axis. -/
theorem mm_eq3 {φ₁ φ₂ : FTy} (l : FVec Ideal S65536x32x32 φ₁) (r : FVec Ideal S65536x32x3 φ₂) (i : S65536x32x3.Idx) :
    Host.dotGeneral dot_S65536x32x32_S65536x32x3_S65536x32x3_1_1_2_2_0_0 none l r i = ∑ k : Fin 32, l (lidx_eq3 i k) * r (ridx_eq3 i k) := by
  refine (Ideal.dotGeneral_apply dot_S65536x32x32_S65536x32x3_S65536x32x3_1_1_2_2_0_0 none .single l r i).trans ?_
  rw [← Equiv.sum_comp (ValueIdx.contrEquiv1 dot_S65536x32x32_S65536x32x3_S65536x32x3_1_1_2_2_0_0 32 rfl rfl).symm]
  refine Finset.sum_congr rfl fun k _ => ?_
  have hk := ValueIdx.contrEquiv1_symm_val dot_S65536x32x32_S65536x32x3_S65536x32x3_1_1_2_2_0_0 32 rfl rfl k
  have el : dot_S65536x32x32_S65536x32x3_S65536x32x3_1_1_2_2_0_0.lhsIdx i ((ValueIdx.contrEquiv1 dot_S65536x32x32_S65536x32x3_S65536x32x3_1_1_2_2_0_0 32 rfl rfl).symm k) = lidx_eq3 i k := funext fun a => Fin.ext (by
    match a with
    | ⟨0, _⟩ => exact lhs_eq3_0 _ _
    | ⟨1, _⟩ => exact (lhs_eq3_1 _ _).trans hk
    | ⟨2, _⟩ => exact lhs_eq3_2 _ _)
  have er : dot_S65536x32x32_S65536x32x3_S65536x32x3_1_1_2_2_0_0.rhsIdx i ((ValueIdx.contrEquiv1 dot_S65536x32x32_S65536x32x3_S65536x32x3_1_1_2_2_0_0 32 rfl rfl).symm k) = ridx_eq3 i k := funext fun a => Fin.ext (by
    match a with
    | ⟨0, _⟩ => exact rhs_eq3_0 _ _
    | ⟨1, _⟩ => exact (rhs_eq3_1 _ _).trans hk
    | ⟨2, _⟩ => exact rhs_eq3_2 _ _)
  rw [el, er]

/-! ### `dot_S65536x32x32_S65536x32x5_S65536x32x5_1_1_2_2_0_0`: one product per row — the row is a batch axis, the first column axis of both operands is contracted -/

theorem lhs_eq5_0 (i : S65536x32x5.Idx) (q : dot_S65536x32x32_S65536x32x5_S65536x32x5_1_1_2_2_0_0.contr.Idx) : (dot_S65536x32x32_S65536x32x5_S65536x32x5_1_1_2_2_0_0.lhsIdx i q 0).val = (i 0).val := by
  unfold DotDims.lhsIdx
  rw [dif_pos (show (0 : Fin S65536x32x32.rank) ∈ dot_S65536x32x32_S65536x32x5_S65536x32x5_1_1_2_2_0_0.lhsBatch by decide)]
  rfl
theorem lhs_eq5_1 (i : S65536x32x5.Idx) (q : dot_S65536x32x32_S65536x32x5_S65536x32x5_1_1_2_2_0_0.contr.Idx) : (dot_S65536x32x32_S65536x32x5_S65536x32x5_1_1_2_2_0_0.lhsIdx i q 1).val = (q ⟨0, by decide⟩).val :=
  dot_S65536x32x32_S65536x32x5_S65536x32x5_1_1_2_2_0_0.lhsIdx_val_of_single rfl i q
theorem lhs_eq5_2 (i : S65536x32x5.Idx) (q : dot_S65536x32x32_S65536x32x5_S65536x32x5_1_1_2_2_0_0.contr.Idx) : (dot_S65536x32x32_S65536x32x5_S65536x32x5_1_1_2_2_0_0.lhsIdx i q 2).val = (i 1).val := by
  unfold DotDims.lhsIdx
  rw [dif_neg (show ¬(2 : Fin S65536x32x32.rank) ∈ dot_S65536x32x32_S65536x32x5_S65536x32x5_1_1_2_2_0_0.lhsBatch by decide), dif_pos (show (2 : Fin S65536x32x32.rank) ∈ dot_S65536x32x32_S65536x32x5_S65536x32x5_1_1_2_2_0_0.lhsNonContracting by decide)]
  rfl
theorem rhs_eq5_0 (i : S65536x32x5.Idx) (q : dot_S65536x32x32_S65536x32x5_S65536x32x5_1_1_2_2_0_0.contr.Idx) : (dot_S65536x32x32_S65536x32x5_S65536x32x5_1_1_2_2_0_0.rhsIdx i q 0).val = (i 0).val := by
  unfold DotDims.rhsIdx
  rw [dif_pos (show (0 : Fin S65536x32x5.rank) ∈ dot_S65536x32x32_S65536x32x5_S65536x32x5_1_1_2_2_0_0.rhsBatch by decide)]
  rfl
theorem rhs_eq5_1 (i : S65536x32x5.Idx) (q : dot_S65536x32x32_S65536x32x5_S65536x32x5_1_1_2_2_0_0.contr.Idx) : (dot_S65536x32x32_S65536x32x5_S65536x32x5_1_1_2_2_0_0.rhsIdx i q 1).val = (q ⟨0, by decide⟩).val :=
  dot_S65536x32x32_S65536x32x5_S65536x32x5_1_1_2_2_0_0.rhsIdx_val_of_single rfl i q
theorem rhs_eq5_2 (i : S65536x32x5.Idx) (q : dot_S65536x32x32_S65536x32x5_S65536x32x5_1_1_2_2_0_0.contr.Idx) : (dot_S65536x32x32_S65536x32x5_S65536x32x5_1_1_2_2_0_0.rhsIdx i q 2).val = (i 2).val := by
  unfold DotDims.rhsIdx
  rw [dif_neg (show ¬(2 : Fin S65536x32x5.rank) ∈ dot_S65536x32x32_S65536x32x5_S65536x32x5_1_1_2_2_0_0.rhsBatch by decide), dif_pos (show (2 : Fin S65536x32x5.rank) ∈ dot_S65536x32x32_S65536x32x5_S65536x32x5_1_1_2_2_0_0.rhsNonContracting by decide)]
  rfl
/-- The left operand's entry for the result's entry `i` = (row, o, d) and contraction position `k`: (row, k, o). -/
abbrev lidx_eq5 (i : S65536x32x5.Idx) (k : Fin 32) : S65536x32x32.Idx := fun a => match a with
  | ⟨0, _⟩ => ⟨(i 0).val, (i 0).isLt⟩
  | ⟨1, _⟩ => ⟨k.val, k.isLt⟩
  | ⟨2, _⟩ => ⟨(i 1).val, (i 1).isLt⟩
/-- The right operand's: (row, k, d). -/
abbrev ridx_eq5 (i : S65536x32x5.Idx) (k : Fin 32) : S65536x32x5.Idx := fun a => match a with
  | ⟨0, _⟩ => ⟨(i 0).val, (i 0).isLt⟩
  | ⟨1, _⟩ => ⟨k.val, k.isLt⟩
  | ⟨2, _⟩ => ⟨(i 2).val, (i 2).isLt⟩
/-- The host's batched product, at the ideal values, is the plain sum over the contracted axis. -/
theorem mm_eq5 {φ₁ φ₂ : FTy} (l : FVec Ideal S65536x32x32 φ₁) (r : FVec Ideal S65536x32x5 φ₂) (i : S65536x32x5.Idx) :
    Host.dotGeneral dot_S65536x32x32_S65536x32x5_S65536x32x5_1_1_2_2_0_0 none l r i = ∑ k : Fin 32, l (lidx_eq5 i k) * r (ridx_eq5 i k) := by
  refine (Ideal.dotGeneral_apply dot_S65536x32x32_S65536x32x5_S65536x32x5_1_1_2_2_0_0 none .single l r i).trans ?_
  rw [← Equiv.sum_comp (ValueIdx.contrEquiv1 dot_S65536x32x32_S65536x32x5_S65536x32x5_1_1_2_2_0_0 32 rfl rfl).symm]
  refine Finset.sum_congr rfl fun k _ => ?_
  have hk := ValueIdx.contrEquiv1_symm_val dot_S65536x32x32_S65536x32x5_S65536x32x5_1_1_2_2_0_0 32 rfl rfl k
  have el : dot_S65536x32x32_S65536x32x5_S65536x32x5_1_1_2_2_0_0.lhsIdx i ((ValueIdx.contrEquiv1 dot_S65536x32x32_S65536x32x5_S65536x32x5_1_1_2_2_0_0 32 rfl rfl).symm k) = lidx_eq5 i k := funext fun a => Fin.ext (by
    match a with
    | ⟨0, _⟩ => exact lhs_eq5_0 _ _
    | ⟨1, _⟩ => exact (lhs_eq5_1 _ _).trans hk
    | ⟨2, _⟩ => exact lhs_eq5_2 _ _)
  have er : dot_S65536x32x32_S65536x32x5_S65536x32x5_1_1_2_2_0_0.rhsIdx i ((ValueIdx.contrEquiv1 dot_S65536x32x32_S65536x32x5_S65536x32x5_1_1_2_2_0_0 32 rfl rfl).symm k) = ridx_eq5 i k := funext fun a => Fin.ext (by
    match a with
    | ⟨0, _⟩ => exact rhs_eq5_0 _ _
    | ⟨1, _⟩ => exact (rhs_eq5_1 _ _).trans hk
    | ⟨2, _⟩ => exact rhs_eq5_2 _ _)
  rw [el, er]

end Cert.ReferenceIdeal.MatmulRead

end
-- ==== Proof.Layers.lean ====
/-
  The kernel's body on a block of rows against the reference on all rows, layer by layer.

  Both programs compute, for every row b of the batch, from the row's 512 features f and 64 conditioning values c:
    gb₁ = c · film1_w + film1_b,   s₁ = f[0:256] ∗ gb₁[0:256] + gb₁[256:512],
    h   = s₁ · fc1_w,
    gb₂ = c · film2_w + film2_b,   s₂ = h ∗ gb₂[0:256] + gb₂[256:512],
    out[0:128] = s₂ · inv_w,       w = s₂ · wemb_w,
    y₁[o, d] = (Σ_i w[32 i + o] · f[256 + 3 i + d]) · n,          out[128 + 3 o + d] = y₁[o, d],
    y₂[o, d] = (Σ_i w[1024 + 32 i + o] · f[352 + 5 i + d]) · n,   out[224 + 5 o + d] = y₂[o, d],
  with n the one f32 constant both programs multiply by after the sum.  The kernel applies these operations to a block
  of 256 rows (rounding to bf16 before each product with a weight matrix, which at the ideal values is the identity),
  the reference to all 65536 rows; every operation acts row by row, so block `t` of the kernel's value at each stage
  is rows 256·t … of the reference's (`Rows2` / `Rows3`), by the transport lemma of that operation.  No law of
  arithmetic beyond the two programs' common grouping is used, so nothing here needs the inputs to be finite.
-/
import proofs.«142764_j69234872812251_2_alg».proof.Proof.Rows
import proofs.«142764_j69234872812251_2_alg».proof.Proof.KernelMatmul
import proofs.«142764_j69234872812251_2_alg».proof.Proof.ReferenceMatmul
import proofs.«142764_j69234872812251_2_alg».proof.Proof.Gen.KernelIdeal.Skeleton
import proofs.«142764_j69234872812251_2_alg».proof.Proof.Gen.ReferenceIdeal.Read

noncomputable section

namespace Cert.Layers

open Cert.KernelIdeal Cert.KernelIdeal.Gen Idealize.ShloMosaic Idealize.ShloMosaic.TcCoe Cert.RowBlocks

variable {t : ℕ}

/-! ## Rounding to bf16 is the identity at the ideal values -/

theorem Rows2.truncf {C : ℕ} {X : FVec Ideal ⟨2, ![256, C]⟩ .f32} {A : (⟨2, ![65536, C]⟩ : Shape).Idx → EReal}
    (h : Rows2 (α := EReal) t X A) (hb : FTy.bits .bf16 < FTy.bits .f32) :
    Rows2 (α := EReal) t (truncf .bf16 X hb) A := fun y i h0 h1 => h y i h0 h1

theorem Same2.truncf {R C : ℕ} {X : FVec Ideal ⟨2, ![R, C]⟩ .f32} {A : (⟨2, ![R, C]⟩ : Shape).Idx → EReal}
    (h : Same2 (α := EReal) X A) (hb : FTy.bits .bf16 < FTy.bits .f32) :
    Same2 (α := EReal) (truncf .bf16 X hb) A := fun y i h0 h1 => h y i h0 h1

/-! ## A product with a weight matrix: the rows of the left operand are independent

Entry (row, c) of either product is Σ_k left (row, k) · weight (k, c): the kernel's at row `p` of its block, the
reference's at row `256 t + p`, over equal entries. -/

theorem film_rows {φ₁ φ₂ : FTy} {l : FVec Ideal S256x64 φ₁} {r : FVec Ideal S64x512 φ₂}
    {A : FVec Ideal Cert.ReferenceIdeal.S65536x64 .f32} {W : FVec Ideal Cert.ReferenceIdeal.S64x512 .f32}
    (hl : Rows2 (α := EReal) t l A) (hr : Same2 (α := EReal) r W) :
    Rows2 (α := EReal) t (matmul dot_S256x64_S64x512_S256x512_1_0_0_1_n_n none l r (constant (F := Ideal) S256x512 .f32 0x00000000#32))
      (Host.dotGeneral Cert.ReferenceIdeal.dot_S65536x64_S64x512_S65536x512_1_0_0_1_n_n none A W) := by
  intro y i h0 h1
  refine (Cert.KernelIdeal.MatmulRead.mm_film l r y).trans ?_
  refine Eq.trans ?_ (Cert.ReferenceIdeal.MatmulRead.mm_film A W i).symm
  exact Finset.sum_congr rfl fun k _ => congrArg₂ (· * ·) (hl _ _ h0 rfl) (hr _ _ rfl h1)

theorem fc_rows {φ₁ φ₂ : FTy} {l : FVec Ideal S256x256 φ₁} {r : FVec Ideal S256x256 φ₂}
    {A : FVec Ideal Cert.ReferenceIdeal.S65536x256 .f32} {W : FVec Ideal Cert.ReferenceIdeal.S256x256 .f32}
    (hl : Rows2 (α := EReal) t l A) (hr : Same2 (α := EReal) r W) :
    Rows2 (α := EReal) t (matmul dot_S256x256_S256x256_S256x256_1_0_0_1_n_n none l r (constant (F := Ideal) S256x256 .f32 0x00000000#32))
      (Host.dotGeneral Cert.ReferenceIdeal.dot_S65536x256_S256x256_S65536x256_1_0_0_1_n_n none A W) := by
  intro y i h0 h1
  refine (Cert.KernelIdeal.MatmulRead.mm_fc l r y).trans ?_
  refine Eq.trans ?_ (Cert.ReferenceIdeal.MatmulRead.mm_fc A W i).symm
  exact Finset.sum_congr rfl fun k _ => congrArg₂ (· * ·) (hl _ _ h0 rfl) (hr _ _ rfl h1)

theorem inv_rows {φ₁ φ₂ : FTy} {l : FVec Ideal S256x256 φ₁} {r : FVec Ideal S256x128 φ₂}
    {A : FVec Ideal Cert.ReferenceIdeal.S65536x256 .f32} {W : FVec Ideal Cert.ReferenceIdeal.S256x128 .f32}
    (hl : Rows2 (α := EReal) t l A) (hr : Same2 (α := EReal) r W) :
    Rows2 (α := EReal) t (matmul dot_S256x256_S256x128_S256x128_1_0_0_1_n_n none l r (constant (F := Ideal) S256x128 .f32 0x00000000#32))
      (Host.dotGeneral Cert.ReferenceIdeal.dot_S65536x256_S256x128_S65536x128_1_0_0_1_n_n none A W) := by
  intro y i h0 h1
  refine (Cert.KernelIdeal.MatmulRead.mm_inv l r y).trans ?_
  refine Eq.trans ?_ (Cert.ReferenceIdeal.MatmulRead.mm_inv A W i).symm
  exact Finset.sum_congr rfl fun k _ => congrArg₂ (· * ·) (hl _ _ h0 rfl) (hr _ _ rfl h1)

theorem wemb_rows {φ₁ φ₂ : FTy} {l : FVec Ideal S256x256 φ₁} {r : FVec Ideal S256x2048 φ₂}
    {A : FVec Ideal Cert.ReferenceIdeal.S65536x256 .f32} {W : FVec Ideal Cert.ReferenceIdeal.S256x2048 .f32}
    (hl : Rows2 (α := EReal) t l A) (hr : Same2 (α := EReal) r W) :
    Rows2 (α := EReal) t (matmul dot_S256x256_S256x2048_S256x2048_1_0_0_1_n_n none l r (constant (F := Ideal) S256x2048 .f32 0x00000000#32))
      (Host.dotGeneral Cert.ReferenceIdeal.dot_S65536x256_S256x2048_S65536x2048_1_0_0_1_n_n none A W) := by
  intro y i h0 h1
  refine (Cert.KernelIdeal.MatmulRead.mm_wemb l r y).trans ?_
  refine Eq.trans ?_ (Cert.ReferenceIdeal.MatmulRead.mm_wemb A W i).symm
  exact Finset.sum_congr rfl fun k _ => congrArg₂ (· * ·) (hl _ _ h0 rfl) (hr _ _ rfl h1)

/-! ## The per-row products of the equivariant part

Entry (row, o, d) of either product is Σ_i w (row, i, o) · x (row, i, d): one small product per row. -/

theorem eq3_rows {φ₁ φ₂ : FTy} {l : FVec Ideal S256x32x32 φ₁} {r : FVec Ideal S256x32x3 φ₂}
    {A : FVec Ideal Cert.ReferenceIdeal.S65536x32x32 .f32} {W : FVec Ideal Cert.ReferenceIdeal.S65536x32x3 .f32}
    (hl : Rows3 (α := EReal) t l A) (hr : Rows3 (α := EReal) t r W) :
    Rows3 (α := EReal) t (matmul dot_S256x32x32_S256x32x3_S256x32x3_1_1_2_2_0_0 none l r (constant (F := Ideal) S256x32x3 .f32 0x00000000#32))
      (Host.dotGeneral Cert.ReferenceIdeal.dot_S65536x32x32_S65536x32x3_S65536x32x3_1_1_2_2_0_0 none A W) := by
  intro y i h0 h1 h2
  refine (Cert.KernelIdeal.MatmulRead.mm_eq3 l r y).trans ?_
  refine Eq.trans ?_ (Cert.ReferenceIdeal.MatmulRead.mm_eq3 A W i).symm
  exact Finset.sum_congr rfl fun k _ => congrArg₂ (· * ·) (hl _ _ h0 rfl h1) (hr _ _ h0 rfl h2)

theorem eq5_rows {φ₁ φ₂ : FTy} {l : FVec Ideal S256x32x32 φ₁} {r : FVec Ideal S256x32x5 φ₂}
    {A : FVec Ideal Cert.ReferenceIdeal.S65536x32x32 .f32} {W : FVec Ideal Cert.ReferenceIdeal.S65536x32x5 .f32}
    (hl : Rows3 (α := EReal) t l A) (hr : Rows3 (α := EReal) t r W) :
    Rows3 (α := EReal) t (matmul dot_S256x32x32_S256x32x5_S256x32x5_1_1_2_2_0_0 none l r (constant (F := Ideal) S256x32x5 .f32 0x00000000#32))
      (Host.dotGeneral Cert.ReferenceIdeal.dot_S65536x32x32_S65536x32x5_S65536x32x5_1_1_2_2_0_0 none A W) := by
  intro y i h0 h1 h2
  refine (Cert.KernelIdeal.MatmulRead.mm_eq5 l r y).trans ?_
  refine Eq.trans ?_ (Cert.ReferenceIdeal.MatmulRead.mm_eq5 A W i).symm
  exact Finset.sum_congr rfl fun k _ => congrArg₂ (· * ·) (hl _ _ h0 rfl h1) (hr _ _ h0 rfl h2)

/-! ## The body's values -/

section Body

variable (x0 : Vec Ideal S256x512 .f32) (x1 : Vec Ideal S256x64 .f32) (x2 : Vec Ideal S64x512 .f32) (x3 : Vec Ideal S1x512 .f32)
  (x4 : Vec Ideal S256x256 .f32) (x5 : Vec Ideal S64x512 .f32) (x6 : Vec Ideal S1x512 .f32) (x7 : Vec Ideal S256x128 .f32)
  (x8 : Vec Ideal S256x2048 .f32)
  (A0 : (⟨Cert.ReferenceIdeal.S65536x512, .f32⟩ : BufTy).Contents (Elt Ideal)) (A1 : (⟨Cert.ReferenceIdeal.S65536x64, .f32⟩ : BufTy).Contents (Elt Ideal))
  (A2 : (⟨Cert.ReferenceIdeal.S64x512, .f32⟩ : BufTy).Contents (Elt Ideal)) (A3 : (⟨Cert.ReferenceIdeal.S512, .f32⟩ : BufTy).Contents (Elt Ideal))
  (A4 : (⟨Cert.ReferenceIdeal.S256x256, .f32⟩ : BufTy).Contents (Elt Ideal)) (A5 : (⟨Cert.ReferenceIdeal.S64x512, .f32⟩ : BufTy).Contents (Elt Ideal))
  (A6 : (⟨Cert.ReferenceIdeal.S512, .f32⟩ : BufTy).Contents (Elt Ideal)) (A7 : (⟨Cert.ReferenceIdeal.S256x128, .f32⟩ : BufTy).Contents (Elt Ideal))
  (A8 : (⟨Cert.ReferenceIdeal.S256x2048, .f32⟩ : BufTy).Contents (Elt Ideal))

/-- The equivariant half of the features, columns 256 … 511. -/
theorem equiv_rows (h0 : Rows2 (α := EReal) t x0 A0) : Rows2 (α := EReal) t (k0_pay2 x0) (Cert.ReferenceIdeal.Read.val_main_v1 A0) :=
  Rows2.slice (off := 256) h0 Cert.KernelIdeal.Facts₀.slices_S256x512_o0_256_S256x256 Cert.ReferenceIdeal.Facts₀.slices_S65536x512_S65536x256_0_256

/-- The scalars after FiLM 1, the dense layer and FiLM 2. -/
theorem scalars_rows (h0 : Rows2 (α := EReal) t x0 A0) (h1 : Rows2 (α := EReal) t x1 A1) (h2 : Same2 (α := EReal) x2 A2)
    (h3 : RowOf (α := EReal) x3 A3) (h4 : Same2 (α := EReal) x4 A4) (h5 : Same2 (α := EReal) x5 A5) (h6 : RowOf (α := EReal) x6 A6) :
    Rows2 (α := EReal) t (k0_pay3 x0 x1 x2 x3 x4 x5 x6) (Cert.ReferenceIdeal.Read.val_main_v18 A0 A1 A2 A3 A4 A5 A6) := by
  have s0 := Rows2.slice (off := 0) h0 Cert.KernelIdeal.Facts₀.slices_S256x512_o0_0_S256x256 Cert.ReferenceIdeal.Facts₀.slices_S65536x512_S65536x256_0_0
  have gb1 := Rows2.addf (F := Ideal) (φ := .f32)
    (film_rows (Rows2.truncf h1 Cert.KernelIdeal.Facts₀.bitsLt_bf16_f32) (Same2.truncf h2 Cert.KernelIdeal.Facts₀.bitsLt_bf16_f32))
    (Rows2.bias (t := t) h3 Cert.KernelIdeal.Facts₀.shapeCasts_S1x512_S1x512 Cert.KernelIdeal.Facts₀.broadcasts_S1x512_S256x512 Cert.ReferenceIdeal.Facts₀.bcast_S512_S1x512_1 Cert.ReferenceIdeal.Facts₀.bcast_S1x512_S65536x512_0_1)
  have s1 := Rows2.addf (F := Ideal) (φ := .f32)
    (Rows2.mulf (F := Ideal) (φ := .f32) s0
      (Rows2.slice (off := 0) gb1 Cert.KernelIdeal.Facts₀.slices_S256x512_o0_0_S256x256 Cert.ReferenceIdeal.Facts₀.slices_S65536x512_S65536x256_0_0))
    (Rows2.slice (off := 256) gb1 Cert.KernelIdeal.Facts₀.slices_S256x512_o0_256_S256x256 Cert.ReferenceIdeal.Facts₀.slices_S65536x512_S65536x256_0_256)
  have hfc := fc_rows (Rows2.truncf s1 Cert.KernelIdeal.Facts₀.bitsLt_bf16_f32) (Same2.truncf h4 Cert.KernelIdeal.Facts₀.bitsLt_bf16_f32)
  have gb2 := Rows2.addf (F := Ideal) (φ := .f32)
    (film_rows (Rows2.truncf h1 Cert.KernelIdeal.Facts₀.bitsLt_bf16_f32) (Same2.truncf h5 Cert.KernelIdeal.Facts₀.bitsLt_bf16_f32))
    (Rows2.bias (t := t) h6 Cert.KernelIdeal.Facts₀.shapeCasts_S1x512_S1x512 Cert.KernelIdeal.Facts₀.broadcasts_S1x512_S256x512 Cert.ReferenceIdeal.Facts₀.bcast_S512_S1x512_1 Cert.ReferenceIdeal.Facts₀.bcast_S1x512_S65536x512_0_1)
  exact Rows2.addf (F := Ideal) (φ := .f32)
    (Rows2.mulf (F := Ideal) (φ := .f32) hfc
      (Rows2.slice (off := 0) gb2 Cert.KernelIdeal.Facts₀.slices_S256x512_o0_0_S256x256 Cert.ReferenceIdeal.Facts₀.slices_S65536x512_S65536x256_0_0))
    (Rows2.slice (off := 256) gb2 Cert.KernelIdeal.Facts₀.slices_S256x512_o0_256_S256x256 Cert.ReferenceIdeal.Facts₀.slices_S65536x512_S65536x256_0_256)

/-- The invariant read-out. -/
theorem readout_rows (h0 : Rows2 (α := EReal) t x0 A0) (h1 : Rows2 (α := EReal) t x1 A1) (h2 : Same2 (α := EReal) x2 A2)
    (h3 : RowOf (α := EReal) x3 A3) (h4 : Same2 (α := EReal) x4 A4) (h5 : Same2 (α := EReal) x5 A5) (h6 : RowOf (α := EReal) x6 A6)
    (h7 : Same2 (α := EReal) x7 A7) :
    Rows2 (α := EReal) t (k0_pay4 x0 x1 x2 x3 x4 x5 x6 x7) (Cert.ReferenceIdeal.Read.val_main_v19 A0 A1 A2 A3 A4 A5 A6 A7) :=
  inv_rows (Rows2.truncf (scalars_rows x0 x1 x2 x3 x4 x5 x6 A0 A1 A2 A3 A4 A5 A6 h0 h1 h2 h3 h4 h5 h6) Cert.KernelIdeal.Facts₀.bitsLt_bf16_f32)
    (Same2.truncf h7 Cert.KernelIdeal.Facts₀.bitsLt_bf16_f32)

/-- The hypernetwork's weight matrix, rounded. -/
theorem wemb_same (h8 : Same2 (α := EReal) x8 A8) : Same2 (α := EReal) (k0_pay5 x8) A8 :=
  Same2.truncf h8 Cert.KernelIdeal.Facts₀.bitsLt_bf16_f32

/-- The output row: the read-out, then the two weighted contractions of the equivariant features with the
    hypernetwork's per-row weights `w = s₂ · wemb_w`, each times the common constant, flattened and joined. -/
theorem output_rows {v3 : FVec Ideal S256x256 .f32} {v30 : FVec Ideal S256x256 .f32} {v34 : FVec Ideal S256x128 .f32}
    {v36 : FVec Ideal S256x2048 .bf16}
    (hv3 : Rows2 (α := EReal) t v3 (Cert.ReferenceIdeal.Read.val_main_v1 A0))
    (hv30 : Rows2 (α := EReal) t v30 (Cert.ReferenceIdeal.Read.val_main_v18 A0 A1 A2 A3 A4 A5 A6))
    (hv34 : Rows2 (α := EReal) t v34 (Cert.ReferenceIdeal.Read.val_main_v19 A0 A1 A2 A3 A4 A5 A6 A7))
    (hv36 : Same2 (α := EReal) v36 A8) :
    Rows2 (α := EReal) t (k0_pay1 v3 v30 v34 v36) (Cert.ReferenceIdeal.Read.val_main_v38 A0 A1 A2 A3 A4 A5 A6 A7 A8) := by
  have w := wemb_rows (Rows2.truncf hv30 Cert.KernelIdeal.Facts₀.bitsLt_bf16_f32) hv36
  have x1r := Rows2.split_32_3
    (Rows2.slice (off := 0) hv3 Cert.KernelIdeal.Facts₀.slices_S256x256_o0_0_S256x96 Cert.ReferenceIdeal.Facts₀.slices_S65536x256_S65536x96_0_0)
    Cert.KernelIdeal.Facts₀.shapeCasts_S256x96_S256x32x3 Cert.ReferenceIdeal.Facts₀.shapeCasts_S65536x96_S65536x32x3
  have x2r := Rows2.split_32_5
    (Rows2.slice (off := 96) hv3 Cert.KernelIdeal.Facts₀.slices_S256x256_o0_96_S256x160 Cert.ReferenceIdeal.Facts₀.slices_S65536x256_S65536x160_0_96)
    Cert.KernelIdeal.Facts₀.shapeCasts_S256x160_S256x32x5 Cert.ReferenceIdeal.Facts₀.shapeCasts_S65536x160_S65536x32x5
  have w1 := Rows2.split_32_32
    (Rows2.slice (off := 0) w Cert.KernelIdeal.Facts₀.slices_S256x2048_o0_0_S256x1024 Cert.ReferenceIdeal.Facts₀.slices_S65536x2048_S65536x1024_0_0)
    Cert.KernelIdeal.Facts₀.shapeCasts_S256x1024_S256x32x32 Cert.ReferenceIdeal.Facts₀.shapeCasts_S65536x1024_S65536x32x32
  have w2 := Rows2.split_32_32
    (Rows2.slice (off := 1024) w Cert.KernelIdeal.Facts₀.slices_S256x2048_o0_1024_S256x1024 Cert.ReferenceIdeal.Facts₀.slices_S65536x2048_S65536x1024_0_1024)
    Cert.KernelIdeal.Facts₀.shapeCasts_S256x1024_S256x32x32 Cert.ReferenceIdeal.Facts₀.shapeCasts_S65536x1024_S65536x32x32
  have y1 := Rows3.mulf (F := Ideal) (φ := .f32) (eq3_rows (φ₁ := .f32) (φ₂ := .f32) w1 x1r)
    (Rows3.const (t := t) (Scalar.ofBits (F := Ideal) .f32 0x3E3504F3#32) (Cert.ReferenceIdeal.Read.val_main_v30 (F := Ideal)) (fun _ => rfl))
  have y2 := Rows3.mulf (F := Ideal) (φ := .f32) (eq5_rows (φ₁ := .f32) (φ₂ := .f32) w2 x2r)
    (Rows3.const (t := t) (Scalar.ofBits (F := Ideal) .f32 0x3E3504F3#32) (Cert.ReferenceIdeal.Read.val_main_v33 (F := Ideal)) (fun _ => rfl))
  exact Rows2.concat3 hv34
    (Rows3.flatten_32_3 y1 Cert.KernelIdeal.Facts₀.shapeCasts_S256x32x3_S256x96 Cert.ReferenceIdeal.Facts₀.shapeCasts_S65536x32x3_S65536x96)
    (Rows3.flatten_32_5 y2 Cert.KernelIdeal.Facts₀.shapeCasts_S256x32x5_S256x160 Cert.ReferenceIdeal.Facts₀.shapeCasts_S65536x32x5_S65536x160)
    Cert.KernelIdeal.Facts₀.concatenates_S256x128_S256x96_S256x160_S256x384_d1 Cert.ReferenceIdeal.Facts₀.concatenates_S65536x96_S65536x160_S65536x256_d1
    Cert.ReferenceIdeal.Facts₀.concatenates_S65536x128_S65536x256_S65536x384_d1

end Body

end Cert.Layers

end
-- ==== Proof.Whole.lean ====
/-
  From blocks to the whole output array.  Grid point `t` of the 256 stages rows 256·t … 256·t + 255 of the features
  and of the conditioning values and the whole of every weight (the two biases as [1, 512] rows a host reshape laid
  out before the call), runs the body on them and writes its [256, 384] result back as rows 256·t … of the output.
  By the layer-by-layer transport (the sibling module on the body's layers) what the body computes from those blocks
  is rows 256·t … of the function `whole` below — the reference's composed operations applied to the kernel's own
  argument arrays.  The 256 blocks of 256 rows cover all 65536 rows (row r lies in block r / 256), so after the run
  the output array is `whole` of the arguments.
-/
import proofs.«142764_j69234872812251_2_alg».proof.Proof.Layers
import proofs.«142764_j69234872812251_2_alg».proof.Proof.Gen.KernelIdeal.Value
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem Cert.RowBlocks
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 256 grid points

The features, the conditioning values and the output move one block of rows per point; every other window stays at
block (0, 0). -/

theorem idx_pt0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_pt1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_pt2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_pt3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_pt4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_pt5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_pt6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_pt7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_pt8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_pt9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-! ## The blocks the body reads -/

/-- Window 0's block at point `t` is rows 256·t … 256·t + 255 of `main_arg0`. -/
theorem blk0_rows (c : Dev nD) (t : Fin cfg0.N) :
    Rows2 (α := EReal) (C := 512) t.val (iblk m c 0 t : Vec Ideal S256x512 .f32) (m ((c : Thread nD τ).loc main_arg0)) := by
  rw [← V_main_arg0 m c]
  intro y i h0 h1
  show V m c main_arg0 (((cfg0.win 0).blk t).view.emb y) = V m c main_arg0 i
  obtain ⟨e0, e1⟩ := idx_pt0 t
  refine congrArg _ (funext fun a => Fin.ext ?_)
  match a with
  | ⟨0, _⟩ => show win0_0.index t (0 : Fin 2) * 256 + 1 * (y 0).val = (i 0).val; omega
  | ⟨1, _⟩ => show win0_0.index t (1 : Fin 2) * 512 + 1 * (y 1).val = (i 1).val; omega

/-- Window 1's block at point `t` is rows 256·t … 256·t + 255 of `main_arg1`. -/
theorem blk1_rows (c : Dev nD) (t : Fin cfg0.N) :
    Rows2 (α := EReal) (C := 64) t.val (iblk m c 1 t : Vec Ideal S256x64 .f32) (m ((c : Thread nD τ).loc main_arg1)) := by
  rw [← V_main_arg1 m c]
  intro y i h0 h1
  show V m c main_arg1 (((cfg0.win 1).blk t).view.emb y) = V m c main_arg1 i
  obtain ⟨e0, e1⟩ := idx_pt1 t
  refine congrArg _ (funext fun a => Fin.ext ?_)
  match a with
  | ⟨0, _⟩ => show win0_1.index t (0 : Fin 2) * 256 + 1 * (y 0).val = (i 0).val; omega
  | ⟨1, _⟩ => show win0_1.index t (1 : Fin 2) * 64 + 1 * (y 1).val = (i 1).val; omega

/-- Window 2's block at every point is the whole of `main_arg2`. -/
theorem blk2_same (c : Dev nD) (t : Fin cfg0.N) :
    Same2 (α := EReal) (R := 64) (C := 512) (iblk m c 2 t : Vec Ideal S64x512 .f32) (m ((c : Thread nD τ).loc main_arg2)) := by
  rw [← V_main_arg2 m c]
  intro y i h0 h1
  show V m c main_arg2 (((cfg0.win 2).blk t).view.emb y) = V m c main_arg2 i
  obtain ⟨e0, e1⟩ := idx_pt2 t
  refine congrArg _ (funext fun a => Fin.ext ?_)
  match a with
  | ⟨0, _⟩ => show win0_2.index t (0 : Fin 2) * 64 + 1 * (y 0).val = (i 0).val; omega
  | ⟨1, _⟩ => show win0_2.index t (1 : Fin 2) * 512 + 1 * (y 1).val = (i 1).val; omega

/-- Window 4's block at every point is the whole of `main_arg4`. -/
theorem blk4_same (c : Dev nD) (t : Fin cfg0.N) :
    Same2 (α := EReal) (R := 256) (C := 256) (iblk m c 4 t : Vec Ideal S256x256 .f32) (m ((c : Thread nD τ).loc main_arg4)) := by
  rw [← V_main_arg4 m c]
  intro y i h0 h1
  show V m c main_arg4 (((cfg0.win 4).blk t).view.emb y) = V m c main_arg4 i
  obtain ⟨e0, e1⟩ := idx_pt4 t
  refine congrArg _ (funext fun a => Fin.ext ?_)
  match a with
  | ⟨0, _⟩ => show win0_4.index t (0 : Fin 2) * 256 + 1 * (y 0).val = (i 0).val; omega
  | ⟨1, _⟩ => show win0_4.index t (1 : Fin 2) * 256 + 1 * (y 1).val = (i 1).val; omega

/-- Window 5's block at every point is the whole of `main_arg5`. -/
theorem blk5_same (c : Dev nD) (t : Fin cfg0.N) :
    Same2 (α := EReal) (R := 64) (C := 512) (iblk m c 5 t : Vec Ideal S64x512 .f32) (m ((c : Thread nD τ).loc main_arg5)) := by
  rw [← V_main_arg5 m c]
  intro y i h0 h1
  show V m c main_arg5 (((cfg0.win 5).blk t).view.emb y) = V m c main_arg5 i
  obtain ⟨e0, e1⟩ := idx_pt5 t
  refine congrArg _ (funext fun a => Fin.ext ?_)
  match a with
  | ⟨0, _⟩ => show win0_5.index t (0 : Fin 2) * 64 + 1 * (y 0).val = (i 0).val; omega
  | ⟨1, _⟩ => show win0_5.index t (1 : Fin 2) * 512 + 1 * (y 1).val = (i 1).val; omega

/-- Window 7's block at every point is the whole of `main_arg7`. -/
theorem blk7_same (c : Dev nD) (t : Fin cfg0.N) :
    Same2 (α := EReal) (R := 256) (C := 128) (iblk m c 7 t : Vec Ideal S256x128 .f32) (m ((c : Thread nD τ).loc main_arg7)) := by
  rw [← V_main_arg7 m c]
  intro y i h0 h1
  show V m c main_arg7 (((cfg0.win 7).blk t).view.emb y) = V m c main_arg7 i
  obtain ⟨e0, e1⟩ := idx_pt7 t
  refine congrArg _ (funext fun a => Fin.ext ?_)
  match a with
  | ⟨0, _⟩ => show win0_7.index t (0 : Fin 2) * 256 + 1 * (y 0).val = (i 0).val; omega
  | ⟨1, _⟩ => show win0_7.index t (1 : Fin 2) * 128 + 1 * (y 1).val = (i 1).val; omega

/-- Window 8's block at every point is the whole of `main_arg8`. -/
theorem blk8_same (c : Dev nD) (t : Fin cfg0.N) :
    Same2 (α := EReal) (R := 256) (C := 2048) (iblk m c 8 t : Vec Ideal S256x2048 .f32) (m ((c : Thread nD τ).loc main_arg8)) := by
  rw [← V_main_arg8 m c]
  intro y i h0 h1
  show V m c main_arg8 (((cfg0.win 8).blk t).view.emb y) = V m c main_arg8 i
  obtain ⟨e0, e1⟩ := idx_pt8 t
  refine congrArg _ (funext fun a => Fin.ext ?_)
  match a with
  | ⟨0, _⟩ => show win0_8.index t (0 : Fin 2) * 256 + 1 * (y 0).val = (i 0).val; omega
  | ⟨1, _⟩ => show win0_8.index t (1 : Fin 2) * 2048 + 1 * (y 1).val = (i 1).val; omega

/-- The region finds `main_v0` holding `main_arg3` laid out as one row of 512. -/
theorem V_main_v0 (c : Dev nD) :
    (V m c main_v0 : S1x512.Idx → EReal) = shapeCast S1x512 (m ((c : Thread nD τ).loc main_arg3)) Cert.KernelIdeal.Facts₀.shapeCasts_S512_S1x512 := by
  dsimp only [Gen.V, Gen.hostOps0]; after_results; rfl

/-- Window 3's block at every point is that row: entry (0, j) is entry j of `main_arg3`. -/
theorem blk3_row (c : Dev nD) (t : Fin cfg0.N) :
    RowOf (α := EReal) (C := 512) (iblk m c 3 t : Vec Ideal S1x512 .f32) (m ((c : Thread nD τ).loc main_arg3)) := by
  intro y j hj
  show V m c main_v0 (((cfg0.win 3).blk t).view.emb y) = m ((c : Thread nD τ).loc main_arg3) j
  rw [V_main_v0 m c]
  obtain ⟨e0, e1⟩ := idx_pt3 t
  have hy0 : (y 0).val < 1 := (y 0).isLt
  refine shapeCast_apply _ _ _ j ?_
  rw [Shape.rowMajor_val_one, Shape.rowMajor_val_two]
  show (j 0).val = (win0_3.index t (0 : Fin 2) * 1 + 1 * (y 0).val) * 512 + (win0_3.index t (1 : Fin 2) * 512 + 1 * (y 1).val)
  omega

/-- The region finds `main_v1` holding `main_arg6` laid out as one row of 512. -/
theorem V_main_v1 (c : Dev nD) :
    (V m c main_v1 : S1x512.Idx → EReal) = shapeCast S1x512 (m ((c : Thread nD τ).loc main_arg6)) Cert.KernelIdeal.Facts₀.shapeCasts_S512_S1x512 := by
  dsimp only [Gen.V, Gen.hostOps0]; after_results; rfl

/-- Window 6's block at every point is that row: entry (0, j) is entry j of `main_arg6`. -/
theorem blk6_row (c : Dev nD) (t : Fin cfg0.N) :
    RowOf (α := EReal) (C := 512) (iblk m c 6 t : Vec Ideal S1x512 .f32) (m ((c : Thread nD τ).loc main_arg6)) := by
  intro y j hj
  show V m c main_v1 (((cfg0.win 6).blk t).view.emb y) = m ((c : Thread nD τ).loc main_arg6) j
  rw [V_main_v1 m c]
  obtain ⟨e0, e1⟩ := idx_pt6 t
  have hy0 : (y 0).val < 1 := (y 0).isLt
  refine shapeCast_apply _ _ _ j ?_
  rw [Shape.rowMajor_val_one, Shape.rowMajor_val_two]
  show (j 0).val = (win0_6.index t (0 : Fin 2) * 1 + 1 * (y 0).val) * 512 + (win0_6.index t (1 : Fin 2) * 512 + 1 * (y 1).val)
  omega

/-! ## The whole-array function and what each point writes back -/

/-- The output array as one function of the argument arrays: the reference's operations, composed. -/
def whole (c : Dev nD) : S65536x384.Idx → EReal :=
  Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The body's result on point `t`'s blocks is rows 256·t … of `whole`. -/
theorem body_rows (c : Dev nD) (t : Fin cfg0.N) :
    Rows2 (α := EReal) (C := 384) t.val
      (k0_pay1 (k0_pay2 (iblk m c 0 t))
        (k0_pay3 (iblk m c 0 t) (iblk m c 1 t) (iblk m c 2 t) (iblk m c 3 t) (iblk m c 4 t) (iblk m c 5 t) (iblk m c 6 t))
        (k0_pay4 (iblk m c 0 t) (iblk m c 1 t) (iblk m c 2 t) (iblk m c 3 t) (iblk m c 4 t) (iblk m c 5 t) (iblk m c 6 t) (iblk m c 7 t))
        (k0_pay5 (iblk m c 8 t)) : FVec Ideal S256x384 .f32)
      (whole m c) :=
  Cert.Layers.output_rows _ _ _ _ _ _ _ _ _
    (Cert.Layers.equiv_rows _ _ (blk0_rows m c t))
    (Cert.Layers.scalars_rows _ _ _ _ _ _ _ _ _ _ _ _ _ _ (blk0_rows m c t) (blk1_rows m c t) (blk2_same m c t) (blk3_row m c t)
      (blk4_same m c t) (blk5_same m c t) (blk6_row m c t))
    (Cert.Layers.readout_rows _ _ _ _ _ _ _ _ _ _ _ _ _ _ _ _ (blk0_rows m c t) (blk1_rows m c t) (blk2_same m c t) (blk3_row m c t)
      (blk4_same m c t) (blk5_same m c t) (blk6_row m c t) (blk7_same m c t))
    (Cert.Layers.wemb_same _ _ (blk8_same m c t))

/-- WHAT POINT `t` WRITES BACK is block `t` of `whole`. -/
theorem flushed_eq (c : Dev nD) (t : Fin cfg0.N) :
    (dats m 0 c).flushed 9 t = ((cfg0.win 9).blk t).view.read (Elt Ideal) (whole m c) := by
  rw [Cert.KernelIdeal.Value.flushed9]
  unfold out0_9
  rw [View.canon_unit_zero hz]
  simp only [View.ld_unit_zero (S := S256x512) hz, View.ld_unit_zero (S := S256x64) hz, View.ld_unit_zero (S := S64x512) hz,
    View.ld_unit_zero (S := S1x512) hz, View.ld_unit_zero (S := S256x256) hz, View.ld_unit_zero (S := S256x128) hz,
    View.ld_unit_zero (S := S256x2048) hz]
  funext y
  obtain ⟨e0, e1⟩ := idx_pt9 t
  refine body_rows m c t y _ ?_ ?_
  · show win0_9.index t (0 : Fin 2) * 256 + 1 * (y 0).val = 256 * t.val + (y 0).val; omega
  · show win0_9.index t (1 : Fin 2) * 384 + 1 * (y 1).val = (y 1).val; omega

/-- An index of the output array is in point `t`'s block iff each coordinate is in the block's range on its axis. -/
theorem mem_blk (t : Fin cfg0.N) (i : S65536x384.Idx) :
    i ∈ ((cfg0.win 9).blk t).view.set ↔ ∀ a : Fin 2, win0_9.index t a * S256x384.size a ≤ (i a).val ∧ (i a).val < win0_9.index t a * S256x384.size a + S256x384.size a := by
  show i ∈ ((View.whole main_v2).slice (win0_9.rect t)).set ↔ _
  rw [View.set_slice_whole, Rect.mem_set_unit]
  exact Iff.rfl

/-- Every row of the output lies in some point's block: row `r` in the block of point `r / 256`. -/
theorem cover (i : S65536x384.Idx) : ∃ t : Fin cfg0.N, (cfg0.win 9).flush t = true ∧ i ∈ ((cfg0.win 9).blk t).view.set := by
  have hi0 : (i 0).val < 65536 := (i 0).isLt
  have hi1 : (i 1).val < 384 := (i 1).isLt
  have hN : cfg0.N = 256 := Gen.N_0
  refine ⟨⟨(i 0).val / 256, by rw [hN]; omega⟩, flush0_9 _, ?_⟩
  rw [mem_blk]
  obtain ⟨e0, e1⟩ := idx_pt9 ⟨(i 0).val / 256, by rw [hN]; omega⟩
  intro a
  match a with
  | ⟨0, _⟩ =>
    show win0_9.index _ (0 : Fin 2) * 256 ≤ (i 0).val ∧ (i 0).val < win0_9.index _ (0 : Fin 2) * 256 + 256
    rw [e0]; show (i 0).val / 256 * 256 ≤ (i 0).val ∧ (i 0).val < (i 0).val / 256 * 256 + 256; omega
  | ⟨1, _⟩ =>
    show win0_9.index _ (1 : Fin 2) * 384 ≤ (i 1).val ∧ (i 1).val < win0_9.index _ (1 : Fin 2) * 384 + 384
    rw [e1]; omega

/-- THE OUTPUT ARRAY after the run is `whole` of the argument arrays. -/
theorem final (c : Dev nD) : (dats m 0 c).arrAt 9 cfg0.N = whole m c :=
  (dats m 0 c).arrAt_eq_of_cover 9 (whole m c) (fun t _ => flushed_eq m c t) (cover)

/-- The kernel's run: it terminates with the output array at `whole` of the arguments and the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

end
-- ==== Proof.lean ====
/-
  A conditioned scalar network with a hypernetwork-weighted equivariant linear layer, on 65536 rows of 512 features and
  64 conditioning values: the kernel, a pipelined call over 256 blocks of 256 rows, against the plain reference.

  For every row both programs compute, with c the row's conditioning values and f its features,
    gb₁ = c · film1_w + film1_b,   s₁ = f[0:256] ∗ gb₁[0:256] + gb₁[256:512],   h = s₁ · fc1_w,
    gb₂ = c · film2_w + film2_b,   s₂ = h ∗ gb₂[0:256] + gb₂[256:512],
    out[0:128] = s₂ · inv_w,       w = s₂ · wemb_w,
    out[128 + 3 o + d] = (Σ_i w[32 i + o] · f[256 + 3 i + d]) · n,
    out[224 + 5 o + d] = (Σ_i w[1024 + 32 i + o] · f[352 + 5 i + d]) · n,
  with n the same f32 constant on both sides, applied after the sum on both sides.  On the extended reals the kernel's
  rounding of a product's operands to bf16 is the identity and a `tpu.matmul` into a zero accumulator is the same finite
  sum as the host's `dot_general`; the two programs group every sum and product alike, so their results agree entry by
  entry for ALL extended-real inputs and the finiteness precondition is never opened.

  The proof: every operation of the body acts on each row independently, so what the body computes from block `t` of
  the rows is rows 256·t … 256·t + 255 of the reference's composed operations applied to the whole arrays (the modules on
  blocks of rows and on the layers); the 256 blocks written back cover the output array (the module on the whole
  array), which therefore ends at the reference's function of the kernel's own arguments; the reference's run ends at
  the same function of its arguments, which agree with the kernel's.  The three frames are the generated ones, and the
  idealization rewrote nothing, so the kernel is preserved trivially.
-/
import proofs.«142764_j69234872812251_2_alg».proof.Defs
import proofs.«142764_j69234872812251_2_alg».proof.Proof.Gen.Kernel
import proofs.«142764_j69234872812251_2_alg».proof.Proof.Gen.Kernel.Skeleton
import proofs.«142764_j69234872812251_2_alg».proof.Proof.Gen.Kernel.Launch
import proofs.«142764_j69234872812251_2_alg».proof.Proof.Gen.Kernel.Points
import proofs.«142764_j69234872812251_2_alg».proof.Proof.Gen.Kernel.Frame
import proofs.«142764_j69234872812251_2_alg».proof.Proof.Gen.KernelIdeal
import proofs.«142764_j69234872812251_2_alg».proof.Proof.Gen.KernelIdeal.Skeleton
import proofs.«142764_j69234872812251_2_alg».proof.Proof.Gen.KernelIdeal.Launch
import proofs.«142764_j69234872812251_2_alg».proof.Proof.Gen.KernelIdeal.Points
import proofs.«142764_j69234872812251_2_alg».proof.Proof.Gen.KernelIdeal.Frame
import proofs.«142764_j69234872812251_2_alg».proof.Proof.Gen.ReferenceIdeal
import proofs.«142764_j69234872812251_2_alg».proof.Proof.Gen.Pre_finite_inputs
import proofs.«142764_j69234872812251_2_alg».proof.Proof.Gen.KernelIdeal.Value
import proofs.«142764_j69234872812251_2_alg».proof.Proof.Gen.ReferenceIdeal.Run
import proofs.«142764_j69234872812251_2_alg».proof.Proof.Gen.ReferenceIdeal.Read
import proofs.«142764_j69234872812251_2_alg».proof.Proof.Whole
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- Both runs end with the output at the reference's composed operations of the (agreeing) argument arrays. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v38_eq, a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
